-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x64 : Shape := ⟨2, ![100000, 64]⟩
abbrev S5000x64 : Shape := ⟨2, ![5000, 64]⟩
abbrev S1700000x64 : Shape := ⟨2, ![1700000, 64]⟩
abbrev S1x64 : Shape := ⟨2, ![1, 64]⟩
abbrev S5000 : Shape := ⟨1, ![5000]⟩
abbrev S5000x1 : Shape := ⟨2, ![5000, 1]⟩

abbrev nBuf : Space → Nat
  | .hbm => 106
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x1, .f32⟩
  | .hbm, ⟨60, _⟩ => ⟨S1700000x128, .f32⟩
  | .hbm, ⟨61, _⟩ => ⟨S1700000x128, .f32⟩
  | .hbm, ⟨62, _⟩ => ⟨S_, .f32⟩
  | .hbm, ⟨63, _⟩ => ⟨S100000x128, .f32⟩
  | .hbm, ⟨64, _⟩ => ⟨S1700000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .i32⟩
  | .hbm, ⟨70, _⟩ => ⟨S1700000, .i32⟩
  | .hbm, ⟨71, _⟩ => ⟨S1700000, .i1⟩
  | .hbm, ⟨72, _⟩ => ⟨S_, .i32⟩
  | .hbm, ⟨73, _⟩ => ⟨S1700000, .i32⟩
  | .hbm, ⟨74, _⟩ => ⟨S1700000, .i32⟩
  | .hbm, ⟨75, _⟩ => ⟨S1700000, .i32⟩
  | .hbm, ⟨76, _⟩ => ⟨S1700000x1, .i32⟩
  | .hbm, ⟨77, _⟩ => ⟨S1700000x128, .f32⟩
  | .hbm, ⟨78, _⟩ => ⟨S1700000x1, .f32⟩
  | .hbm, ⟨79, _⟩ => ⟨S1700000x128, .f32⟩
  | .hbm, ⟨80, _⟩ => ⟨S1700000x128, .f32⟩
  | .hbm, ⟨81, _⟩ => ⟨S_, .f32⟩
  | .hbm, ⟨82, _⟩ => ⟨S100000x128, .f32⟩
  | .hbm, ⟨83, _⟩ => ⟨S1700000x1, .i32⟩
  | .hbm, ⟨84, _⟩ => ⟨S100000x128, .f32⟩
  | .hbm, ⟨85, _⟩ => ⟨S1x128, .f32⟩
  | .hbm, ⟨86, _⟩ => ⟨S100000x128, .f32⟩
  | .hbm, ⟨87, _⟩ => ⟨S100000x64, .f32⟩
  | .hbm, ⟨88, _⟩ => ⟨S_, .i32⟩
  | .hbm, ⟨89, _⟩ => ⟨S1700000, .i32⟩
  | .hbm, ⟨90, _⟩ => ⟨S1700000, .i1⟩
  | .hbm, ⟨91, _⟩ => ⟨S_, .i32⟩
  | .hbm, ⟨92, _⟩ => ⟨S1700000, .i32⟩
  | .hbm, ⟨93, _⟩ => ⟨S1700000, .i32⟩
  | .hbm, ⟨94, _⟩ => ⟨S1700000, .i32⟩
  | .hbm, ⟨95, _⟩ => ⟨S1700000x1, .i32⟩
  | .hbm, ⟨96, _⟩ => ⟨S1700000x64, .f32⟩
  | .hbm, ⟨97, _⟩ => ⟨S1700000x1, .f32⟩
  | .hbm, ⟨98, _⟩ => ⟨S1700000x64, .f32⟩
  | .hbm, ⟨99, _⟩ => ⟨S1700000x64, .f32⟩
  | .hbm, ⟨100, _⟩ => ⟨S_, .f32⟩
  | .hbm, ⟨101, _⟩ => ⟨S100000x64, .f32⟩
  | .hbm, ⟨102, _⟩ => ⟨S1700000x1, .i32⟩
  | .hbm, ⟨103, _⟩ => ⟨S100000x64, .f32⟩
  | .hbm, ⟨104, _⟩ => ⟨S1x64, .f32⟩
  | .hbm, ⟨105, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_c_9 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_11 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_c_12 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_14 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S5000x64_S5000x64 : S5000x64.ShapeCasts S5000x64
  reduces_S5000x64_S5000 : S5000x64.Reduces [1] S5000
  shapeCasts_S5000_S5000x1 : S5000.ShapeCasts S5000x1
  broadcasts_S5000x1_S5000x64 : S5000x1.Broadcasts S5000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S100000x64.size a
  hwx5_2 : ∀ i : grid5.Coords, EltTy.bits .f32 = 32 ∨ (Rect.block (s := S100000x64) S5000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v45) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v63) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v77) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v78) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 130
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x128, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S_, .f32⟩
  | 70 => ⟨S100000x128, .f32⟩
  | 71 => ⟨S100000x128, .f32⟩
  | 72 => ⟨S100000x128, .f32⟩
  | 73 => ⟨S_, .i32⟩
  | 74 => ⟨S1700000, .i32⟩
  | 75 => ⟨S1700000, .i1⟩
  | 76 => ⟨S_, .i32⟩
  | 77 => ⟨S1700000, .i32⟩
  | 78 => ⟨S1700000, .i32⟩
  | 79 => ⟨S1700000, .i32⟩
  | 80 => ⟨S1700000x1, .i32⟩
  | 81 => ⟨S1700000x128, .f32⟩
  | 82 => ⟨S1700000x1, .f32⟩
  | 83 => ⟨S1700000x128, .f32⟩
  | 84 => ⟨S1700000x128, .f32⟩
  | 85 => ⟨S_, .f32⟩
  | 86 => ⟨S100000x128, .f32⟩
  | 87 => ⟨S1700000x1, .i32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x64, .f32⟩
  | 96 => ⟨S_, .i32⟩
  | 97 => ⟨S1700000, .i32⟩
  | 98 => ⟨S1700000, .i1⟩
  | 99 => ⟨S_, .i32⟩
  | 100 => ⟨S1700000, .i32⟩
  | 101 => ⟨S1700000, .i32⟩
  | 102 => ⟨S1700000, .i32⟩
  | 103 => ⟨S1700000x1, .i32⟩
  | 104 => ⟨S1700000x64, .f32⟩
  | 105 => ⟨S1700000x1, .f32⟩
  | 106 => ⟨S1700000x64, .f32⟩
  | 107 => ⟨S1700000x64, .f32⟩
  | 108 => ⟨S_, .f32⟩
  | 109 => ⟨S100000x64, .f32⟩
  | 110 => ⟨S1700000x1, .i32⟩
  | 111 => ⟨S100000x64, .f32⟩
  | 112 => ⟨S1x64, .f32⟩
  | 113 => ⟨S100000x64, .f32⟩
  | 114 => ⟨S100000x64, .f32⟩
  | 115 => ⟨S_, .f32⟩
  | 116 => ⟨S100000, .f32⟩
  | 117 => ⟨S_, .f32⟩
  | 118 => ⟨S100000, .f32⟩
  | 119 => ⟨S100000, .f32⟩
  | 120 => ⟨S100000x1, .f32⟩
  | 121 => ⟨S100000x64, .f32⟩
  | 122 => ⟨S100000x64, .f32⟩
  | 123 => ⟨S100000x64, .f32⟩
  | 124 => ⟨S_, .f32⟩
  | 125 => ⟨S100000, .f32⟩
  | 126 => ⟨S100000x1, .f32⟩
  | 127 => ⟨S100000x1, .f32⟩
  | _ => ⟨S100000x128, .f32⟩

abbrev hbmTy0_1 (i : Nat) : BufTy := match i % 128 with
  | 0 => ⟨S100000x64, .f32⟩
  | 1 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_v48 : Ref sig .tc := ⟨.hbm, 71, rfl⟩
abbrev main_v49 : Ref sig .tc := ⟨.hbm, 72, rfl⟩
abbrev main_c_9 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_call2_cst : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_call3_cst : Ref sig .tc := ⟨.hbm, 115, rfl⟩
abbrev main_call3_v0 : Ref sig .tc := ⟨.hbm, 116, rfl⟩
abbrev main_call3_cst_0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_call3_v5 : Ref sig .tc := ⟨.hbm, 122, rfl⟩
abbrev main_call3_v6 : Ref sig .tc := ⟨.hbm, 123, rfl⟩
abbrev main_call3_cst_1 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_v84 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KRun.lean ====
/-
  The idealized kernel's run with its result array named.

  The program is six pipelined regions among stretches of host operations.  Every weakly fair execution from a
  memory with zero counters terminates, nothing faulting, and each unscoped buffer ends at the contents the
  fold through the twelve segments gives it; here that is read at the result array as well as at the eight
  arguments: the result ends at the last region's write-backs folded into its array, the arguments as launched.
-/
import proofs.«153782_j69389491634483_1_alg».proof.Proof.Gen.KernelIdeal.Frame

set_option maxRecDepth 16384

noncomputable section

namespace Cert.Gcn.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates without a fault; the result array ends at the
    last boundary's contents of its buffer and the argument arrays end as launched. -/
theorem run_named : θ_run defs (onTc (τ := τ) (main (F := F))) ⟨m, fun _ => 0, ρ⟩ (fun r => ∀ c : Dev nD,
      r.2.mem ((c.tc : Thread nD τ).loc main_v78) = W12 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v78 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.Gcn.KernelRun

end
-- ==== Proof.Spec.lean ====
/-
  The graph-convolution network's three dense stages as functions on the extended reals, index by index.

  A layer is  agg(x · W) + b  followed by relu (layers 1, 2) or by a row-wise log-softmax (layer 3); the
  sparse aggregation agg is the same host computation in both programs, so only the dense stages are
  specified here:
    * linear      (x · W)[r, j] = ∑ k, x[r, k] · W[k, j]                       (128 terms)
    * biasRelu    max (a[r, j] + b[0, j]) 0                                      (b a one-row matrix)
    * logSoftmaxBias   with h[r, j] = a[r, j] + b[0, j] and M_r the maximum of row r of h (a fold of max
                  from -∞ over the 64 classes):  (h[r, j] - M_r) - log (∑ k, exp (h[r, k] - M_r)).
  The float literals stay the words the programs print (0x00000000 is 0, 0xFF800000 is -∞).
-/
import Idealize.ShloMosaic.PureOps.Ideal
import Idealize.ShloMosaic.Lib.ValueIdx

noncomputable section

namespace Cert.Gcn

open Idealize.ShloMosaic Idealize.ShloMosaic.ValueIdx

/-- An r × c matrix of extended reals. -/
abbrev Mat (r c : Nat) : Type := (⟨2, ![r, c]⟩ : Shape).Idx → EReal

/-- The dense product: entry (r, j) is the sum over the 128 features k of x[r, k] · W[k, j]. -/
def linear {n : Nat} (x : Mat 100000 128) (w : Mat 128 n) : Mat 100000 n :=
  fun i => ∑ k : Fin 128, x (ix2 (i 0) k) * w (ix2 k (i 1))

/-- The one-row bias laid along every row, added, then relu. -/
def biasRelu (a : Mat 100000 128) (b : Mat 1 128) : Mat 100000 128 :=
  fun i => max (a i + b (ix2 0 (i 1))) (Ideal.ofBits .f32 0x00000000#32)

/-- Row r of the biased logits: class k ↦ a[r, k] + b[0, k]. -/
def logitRow (a : Mat 100000 64) (b : Mat 1 64) (r : Fin 100000) : Fin 64 → EReal :=
  fun k => a (ix2 r k) + b (ix2 0 k)

/-- The maximum of a row of 64 logits: the fold of max from -∞. -/
def rowMax (h : Fin 64 → EReal) : EReal :=
  (Finset.univ : Finset (Fin 64)).fold max (Ideal.ofBits .f32 0xFF800000#32) h

/-- The bias added, then the row-wise log-softmax in its shifted form. -/
def logSoftmaxBias (a : Mat 100000 64) (b : Mat 1 64) : Mat 100000 64 :=
  fun i => (logitRow a b (i 0) (i 1) - rowMax (logitRow a b (i 0)))
    - Ideal.log (∑ k : Fin 64, Ideal.exp (logitRow a b (i 0) k - rowMax (logitRow a b (i 0))))

end Cert.Gcn

end
-- ==== Proof.Glue.lean ====
/-
  The host side of a graph-convolution layer, as functions of the edge table and a feature matrix.

  The edge table e is [2, 1600000] (row 0 the sources, row 1 the destinations); a self loop is appended per node, so an
  edge list has 1700000 entries.  With deg the number of edges into a node (a scatter-add of ones) and
  dinv = deg^(-1/2) where deg > 0 and 0 elsewhere, edge t carries the weight  norm t = dinv[src t] · 1 · dinv[dst t],
  and the aggregation of a feature matrix h is  agg h = scatter-add over edges t of  h[src t, ·] · norm t  into row dst t
  (negative indices wrap by the node count before the gather).  Each definition below is one host operation of the
  programs applied to the previous ones, in the programs' own spelling.

  After them: the reference's three dense stages in the host's spelling (a dot_general, a broadcast bias added and
  clamped at zero, the shifted log-softmax), and the whole three-layer network over a choice of dense stages.
-/
import proofs.«153782_j69389491634483_1_alg».proof.Proof.Gen.ReferenceIdeal
import proofs.«153782_j69389491634483_1_alg».proof.Proof.Spec

noncomputable section

namespace Cert.Gcn

open Cert.ReferenceIdeal Cert.ReferenceIdeal.Gen Idealize.ShloMosaic

variable {F : FTy → Type} [FloatOps F]

/-- An edge list: one 32-bit node index per edge. -/
abbrev EdgeIdx (F : FTy → Type) : Type := (⟨S1700000, .i32⟩ : BufTy).Contents (Elt F)
/-- The edge table: [2, 1600000] node indices. -/
abbrev EdgeTab (F : FTy → Type) : Type := (⟨S2x1600000, .i32⟩ : BufTy).Contents (Elt F)

/-- The sources: row 0 of the table, then every node once (its self loop). -/
def edgeSrc (e : EdgeTab F) : EdgeIdx F :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destinations: row 1 of the table, then every node once. -/
def edgeDst (e : EdgeTab F) : EdgeIdx F :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index wraps by the node count. -/
def wrapIdx (s : EdgeIdx F) : EdgeIdx F :=
  select (cmpi .slt s (broadcastInDim S1700000 ![] bcast_S_S1700000 (constantI S_ 32 0#32)))
    (addi s (broadcastInDim S1700000 ![] bcast_S_S1700000 (constantI S_ 32 100000#32))) s

/-- An edge list as a one-column index table. -/
def idxCol (s : EdgeIdx F) : (⟨S1700000x1, .i32⟩ : BufTy).Contents (Elt F) :=
  broadcastInDim S1700000x1 ![0] bcast_S1700000_S1700000x1_0 s

/-- The in-degree of every node (self loop included): ones scattered by destination. -/
def deg (e : EdgeTab F) : (⟨S100000, .f32⟩ : BufTy).Contents (Elt F) :=
  Host.scatterAdd scatter_S100000_S1700000x1_S1700000_n_0_0_1
    (broadcastInDim S100000 ![] bcast_S_S100000 (constant S_ .f32 0x00000000#32))
    (idxCol (edgeDst e))
    (broadcastInDim S1700000 ![] bcast_S_S1700000 (constant S_ .f32 0x3F800000#32))

/-- deg^(-1/2) where the degree is positive, zero elsewhere. -/
def dinv (e : EdgeTab F) : (⟨S100000, .f32⟩ : BufTy).Contents (Elt F) :=
  select (cmpf .ogt (deg e) (broadcastInDim S100000 ![] bcast_S_S100000 (constant S_ .f32 0x00000000#32)))
    (Host.rsqrt (deg e))
    (broadcastInDim S100000 ![] bcast_S_S100000 (id (constant S_ .f32 0x00000000#32)))

/-- The weight of every edge: dinv at its source, times one, times dinv at its destination. -/
def edgeNorm (e : EdgeTab F) : (⟨S1700000, .f32⟩ : BufTy).Contents (Elt F) :=
  mulf (mulf (Host.gather gather_S100000_S1700000x1_S1700000_n_0_n_n_0_1_1 (dinv e) (idxCol (wrapIdx (edgeSrc e))))
      (broadcastInDim S1700000 ![] bcast_S_S1700000 (constant S_ .f32 0x3F800000#32)))
    (Host.gather gather_S100000_S1700000x1_S1700000_n_0_n_n_0_1_1 (dinv e) (idxCol (wrapIdx (edgeDst e))))

/-- The weights of the edges. -/
abbrev EdgeW (F : FTy → Type) : Type := (⟨S1700000, .f32⟩ : BufTy).Contents (Elt F)

/-- The aggregation of a 128-feature matrix over edge lists s (sources), d (destinations) and weights w: per edge the
    source's row times the edge's weight, summed into the destination's row. -/
def aggr128 (h : (⟨S100000x128, .f32⟩ : BufTy).Contents (Elt F)) (s d : EdgeIdx F) (w : EdgeW F) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (idxCol d)
    (mulf (Host.gather gather_S100000x128_S1700000x1_S1700000x128_1_0_n_n_0_1_1128 h (idxCol (wrapIdx s)))
      (broadcastInDim S1700000x128 ![0, 1] bcast_S1700000x1_S1700000x128_0_1 (broadcastInDim S1700000x1 ![0] bcast_S1700000_S1700000x1_0 w)))

/-- The same for a 64-feature matrix. -/
def aggr64 (h : (⟨S100000x64, .f32⟩ : BufTy).Contents (Elt F)) (s d : EdgeIdx F) (w : EdgeW F) : (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (idxCol d)
    (mulf (Host.gather gather_S100000x64_S1700000x1_S1700000x64_1_0_n_n_0_1_164 h (idxCol (wrapIdx s)))
      (broadcastInDim S1700000x64 ![0, 1] bcast_S1700000x1_S1700000x64_0_1 (broadcastInDim S1700000x1 ![0] bcast_S1700000_S1700000x1_0 w)))

/-- The aggregation over the graph of an edge table. -/
def agg128 (h : (⟨S100000x128, .f32⟩ : BufTy).Contents (Elt F)) (e : EdgeTab F) : (⟨S100000x128, .f32⟩ : BufTy).Contents (Elt F) :=
  aggr128 h (edgeSrc e) (edgeDst e) (edgeNorm e)
def agg64 (h : (⟨S100000x64, .f32⟩ : BufTy).Contents (Elt F)) (e : EdgeTab F) : (⟨S100000x64, .f32⟩ : BufTy).Contents (Elt F) :=
  aggr64 h (edgeSrc e) (edgeDst e) (edgeNorm e)

/-- A bias vector as a one-row matrix (the kernel's reshape). -/
def row128 (b : (⟨S128, .f32⟩ : BufTy).Contents (Elt F)) : (⟨S1x128, .f32⟩ : BufTy).Contents (Elt F) :=
  shapeCast S1x128 b (by decide)
def row64 (b : (⟨S64, .f32⟩ : BufTy).Contents (Elt F)) : (⟨S1x64, .f32⟩ : BufTy).Contents (Elt F) :=
  shapeCast S1x64 b (by decide)

/-! ## The reference's dense stages, in the host's spelling -/

def refLinear128 (x : (⟨S100000x128, .f32⟩ : BufTy).Contents (Elt F)) (w : (⟨S128x128, .f32⟩ : BufTy).Contents (Elt F)) :
    (⟨S100000x128, .f32⟩ : BufTy).Contents (Elt F) :=
  Host.dotGeneral dot_S100000x128_S128x128_S100000x128_1_0_0_1_n_n none x w

def refLinear64 (x : (⟨S100000x128, .f32⟩ : BufTy).Contents (Elt F)) (w : (⟨S128x64, .f32⟩ : BufTy).Contents (Elt F)) :
    (⟨S100000x64, .f32⟩ : BufTy).Contents (Elt F) :=
  Host.dotGeneral dot_S100000x128_S128x64_S100000x64_1_0_0_1_n_n none x w

def refBiasRelu (a : (⟨S100000x128, .f32⟩ : BufTy).Contents (Elt F)) (b : (⟨S128, .f32⟩ : BufTy).Contents (Elt F)) :
    (⟨S100000x128, .f32⟩ : BufTy).Contents (Elt F) :=
  maximumf (addf a (broadcastInDim S100000x128 ![0, 1] bcast_S1x128_S100000x128_0_1 (broadcastInDim S1x128 ![1] bcast_S128_S1x128_1 b)))
    (broadcastInDim S100000x128 ![] bcast_S_S100000x128 (constant S_ .f32 0x00000000#32))

/-- The biased logits of the last layer. -/
def refLogits (a : (⟨S100000x64, .f32⟩ : BufTy).Contents (Elt F)) (b : (⟨S64, .f32⟩ : BufTy).Contents (Elt F)) :
    (⟨S100000x64, .f32⟩ : BufTy).Contents (Elt F) :=
  addf a (broadcastInDim S100000x64 ![0, 1] bcast_S1x64_S100000x64_0_1 (broadcastInDim S1x64 ![1] bcast_S64_S1x64_1 b))

/-- The logits minus their row maximum (the maximum once more against -∞, as the host spells it). -/
def refShifted (h : (⟨S100000x64, .f32⟩ : BufTy).Contents (Elt F)) : (⟨S100000x64, .f32⟩ : BufTy).Contents (Elt F) :=
  subf h (broadcastInDim S100000x64 ![0, 1] bcast_S100000x1_S100000x64_0_1 (broadcastInDim S100000x1 ![0] bcast_S100000_S100000x1_0
    (maximumf (broadcastInDim S100000 ![] bcast_S_S100000 (constant S_ .f32 0xFF800000#32))
      (Host.reduce FloatOps.maximumf h (constant S_ .f32 0xFF800000#32) reducesTo_S100000x64_S100000_d1 h_S_))))

/-- The shifted logits minus the log of the row sums of their exponentials. -/
def refLogSoftmax (h : (⟨S100000x64, .f32⟩ : BufTy).Contents (Elt F)) : (⟨S100000x64, .f32⟩ : BufTy).Contents (Elt F) :=
  subf (refShifted h) (broadcastInDim S100000x64 ![0, 1] bcast_S100000x1_S100000x64_0_1
    (Host.log (broadcastInDim S100000x1 ![0] bcast_S100000_S100000x1_0
      (Host.reduceAdd (Host.exp (refShifted h)) (constant S_ .f32 0x00000000#32) reducesTo_S100000x64_S100000_d1 h_S_))))

/-- The reference's network. -/
def refGcn (x0 : (⟨S100000x128, .f32⟩ : BufTy).Contents (Elt F)) (e : EdgeTab F)
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F))
    (w3 : (⟨S128x64, .f32⟩ : BufTy).Contents (Elt F)) (b3 : (⟨S64, .f32⟩ : BufTy).Contents (Elt F)) :
    (⟨S100000x64, .f32⟩ : BufTy).Contents (Elt F) :=
  refLogSoftmax (refLogits (agg64 (refLinear64 (refBiasRelu (agg128 (refLinear128 (refBiasRelu (agg128 (refLinear128 x0 w1) e) b1) w2) e) b2) w3) e) b3)

/-- The kernel's network at the ideal values: the same aggregation around the specified dense stages. -/
def gcn (x0 : (⟨S100000x128, .f32⟩ : BufTy).Contents (Elt Ideal)) (e : EdgeTab Ideal)
    (w1 : (⟨S128x128, .f32⟩ : BufTy).Contents (Elt Ideal)) (b1 : (⟨S128, .f32⟩ : BufTy).Contents (Elt Ideal))
    (w2 : (⟨S128x128, .f32⟩ : BufTy).Contents (Elt Ideal)) (b2 : (⟨S128, .f32⟩ : BufTy).Contents (Elt Ideal))
    (w3 : (⟨S128x64, .f32⟩ : BufTy).Contents (Elt Ideal)) (b3 : (⟨S64, .f32⟩ : BufTy).Contents (Elt Ideal)) :
    (⟨S100000x64, .f32⟩ : BufTy).Contents (Elt Ideal) :=
  logSoftmaxBias (agg64 (linear (biasRelu (agg128 (linear (biasRelu (agg128 (linear x0 w1) e) (row128 b1)) w2) e) (row128 b2)) w3) e) (row64 b3)

end Cert.Gcn

end
-- ==== Proof.KHost.lean ====
/-
  The kernel program's stretches of host operations, each read from any contents.

  The edge normalisation (three stretches before the first region) leaves the source list, the destination list and the
  edge weights of the edge table in their buffers.  The stretch after each product leaves in its result buffers the
  aggregation of what it found in the product's buffer and in those three edge buffers, and the layer's bias reshaped to
  one row; none of these stretches writes an argument or an edge buffer.
-/
import proofs.«153782_j69389491634483_1_alg».proof.Proof.Gen.KernelIdeal.Frame
import proofs.«153782_j69389491634483_1_alg».proof.Proof.Glue
import Idealize.ShloMosaic.Lib.StableHlo.Run

set_option maxRecDepth 16384

noncomputable section

namespace Cert.Gcn.KernelHost

open Cert.KernelIdeal Cert.KernelIdeal.Gen Idealize.ShloMosaic Idealize.ShloMosaic.TcCoe Idealize.SL.Sem Idealize.ShloMosaic.StableHlo
open Cert.Gcn

variable {F : FTy → Type} [FloatOps F]

/-! ## The edge normalisation: three stretches of host operations, from any contents -/

theorem pre_v3 (V : Valuation τ sig (Elt F)) :
    after (hostOps0_2 (F := F)) (after hostOps0_1 (after hostOps0 V)) (Proc.devRef .tc main_v3) = edgeSrc (V (Proc.devRef .tc main_arg1)) := by
  after_results; rfl
theorem pre_v6 (V : Valuation τ sig (Elt F)) :
    after (hostOps0_2 (F := F)) (after hostOps0_1 (after hostOps0 V)) (Proc.devRef .tc main_v6) = edgeDst (V (Proc.devRef .tc main_arg1)) := by
  after_results; rfl
set_option maxHeartbeats 8000000 in
theorem pre_v30 (V : Valuation τ sig (Elt F)) :
    after (hostOps0_2 (F := F)) (after hostOps0_1 (after hostOps0 V)) (Proc.devRef .tc main_v30) = edgeNorm (V (Proc.devRef .tc main_arg1)) := by
  after_results; rfl
theorem pre_keep_main_arg0 (V : Valuation τ sig (Elt F)) :
    after (hostOps0_2 (F := F)) (after hostOps0_1 (after hostOps0 V)) (Proc.devRef .tc main_arg0) = V (Proc.devRef .tc main_arg0) := by
  after_results
theorem pre_keep_main_arg2 (V : Valuation τ sig (Elt F)) :
    after (hostOps0_2 (F := F)) (after hostOps0_1 (after hostOps0 V)) (Proc.devRef .tc main_arg2) = V (Proc.devRef .tc main_arg2) := by
  after_results
theorem pre_keep_main_arg3 (V : Valuation τ sig (Elt F)) :
    after (hostOps0_2 (F := F)) (after hostOps0_1 (after hostOps0 V)) (Proc.devRef .tc main_arg3) = V (Proc.devRef .tc main_arg3) := by
  after_results
theorem pre_keep_main_arg4 (V : Valuation τ sig (Elt F)) :
    after (hostOps0_2 (F := F)) (after hostOps0_1 (after hostOps0 V)) (Proc.devRef .tc main_arg4) = V (Proc.devRef .tc main_arg4) := by
  after_results
theorem pre_keep_main_arg5 (V : Valuation τ sig (Elt F)) :
    after (hostOps0_2 (F := F)) (after hostOps0_1 (after hostOps0 V)) (Proc.devRef .tc main_arg5) = V (Proc.devRef .tc main_arg5) := by
  after_results
theorem pre_keep_main_arg6 (V : Valuation τ sig (Elt F)) :
    after (hostOps0_2 (F := F)) (after hostOps0_1 (after hostOps0 V)) (Proc.devRef .tc main_arg6) = V (Proc.devRef .tc main_arg6) := by
  after_results
theorem pre_keep_main_arg7 (V : Valuation τ sig (Elt F)) :
    after (hostOps0_2 (F := F)) (after hostOps0_1 (after hostOps0 V)) (Proc.devRef .tc main_arg7) = V (Proc.devRef .tc main_arg7) := by
  after_results

/-! ## The aggregation after the first product -/

set_option maxHeartbeats 8000000 in
theorem agg1_v44 (V : Valuation τ sig (Elt F)) :
    after (hostOps1 (F := F)) V (Proc.devRef .tc main_v44) = aggr128 (V (Proc.devRef .tc main_v31)) (V (Proc.devRef .tc main_v3)) (V (Proc.devRef .tc main_v6)) (V (Proc.devRef .tc main_v30)) := by
  after_results_simp; rfl
theorem agg1_v45 (V : Valuation τ sig (Elt F)) :
    after (hostOps1 (F := F)) V (Proc.devRef .tc main_v45) = row128 (V (Proc.devRef .tc main_arg3)) := by
  after_results; rfl
theorem agg1_keep_main_arg4 (V : Valuation τ sig (Elt F)) :
    after (hostOps1 (F := F)) V (Proc.devRef .tc main_arg4) = V (Proc.devRef .tc main_arg4) := by
  after_results
theorem agg1_keep_main_arg5 (V : Valuation τ sig (Elt F)) :
    after (hostOps1 (F := F)) V (Proc.devRef .tc main_arg5) = V (Proc.devRef .tc main_arg5) := by
  after_results
theorem agg1_keep_main_arg6 (V : Valuation τ sig (Elt F)) :
    after (hostOps1 (F := F)) V (Proc.devRef .tc main_arg6) = V (Proc.devRef .tc main_arg6) := by
  after_results
theorem agg1_keep_main_arg7 (V : Valuation τ sig (Elt F)) :
    after (hostOps1 (F := F)) V (Proc.devRef .tc main_arg7) = V (Proc.devRef .tc main_arg7) := by
  after_results
theorem agg1_keep_main_v3 (V : Valuation τ sig (Elt F)) :
    after (hostOps1 (F := F)) V (Proc.devRef .tc main_v3) = V (Proc.devRef .tc main_v3) := by
  after_results
theorem agg1_keep_main_v6 (V : Valuation τ sig (Elt F)) :
    after (hostOps1 (F := F)) V (Proc.devRef .tc main_v6) = V (Proc.devRef .tc main_v6) := by
  after_results
theorem agg1_keep_main_v30 (V : Valuation τ sig (Elt F)) :
    after (hostOps1 (F := F)) V (Proc.devRef .tc main_v30) = V (Proc.devRef .tc main_v30) := by
  after_results

/-! ## The aggregation after the second product -/

set_option maxHeartbeats 8000000 in
theorem agg2_v60 (V : Valuation τ sig (Elt F)) :
    after (hostOps3 (F := F)) V (Proc.devRef .tc main_v60) = aggr128 (V (Proc.devRef .tc main_v47)) (V (Proc.devRef .tc main_v3)) (V (Proc.devRef .tc main_v6)) (V (Proc.devRef .tc main_v30)) := by
  after_results_simp; rfl
theorem agg2_v61 (V : Valuation τ sig (Elt F)) :
    after (hostOps3 (F := F)) V (Proc.devRef .tc main_v61) = row128 (V (Proc.devRef .tc main_arg5)) := by
  after_results; rfl
theorem agg2_keep_main_arg6 (V : Valuation τ sig (Elt F)) :
    after (hostOps3 (F := F)) V (Proc.devRef .tc main_arg6) = V (Proc.devRef .tc main_arg6) := by
  after_results
theorem agg2_keep_main_arg7 (V : Valuation τ sig (Elt F)) :
    after (hostOps3 (F := F)) V (Proc.devRef .tc main_arg7) = V (Proc.devRef .tc main_arg7) := by
  after_results
theorem agg2_keep_main_v3 (V : Valuation τ sig (Elt F)) :
    after (hostOps3 (F := F)) V (Proc.devRef .tc main_v3) = V (Proc.devRef .tc main_v3) := by
  after_results
theorem agg2_keep_main_v6 (V : Valuation τ sig (Elt F)) :
    after (hostOps3 (F := F)) V (Proc.devRef .tc main_v6) = V (Proc.devRef .tc main_v6) := by
  after_results
theorem agg2_keep_main_v30 (V : Valuation τ sig (Elt F)) :
    after (hostOps3 (F := F)) V (Proc.devRef .tc main_v30) = V (Proc.devRef .tc main_v30) := by
  after_results

/-! ## The aggregation after the third product -/

set_option maxHeartbeats 8000000 in
theorem agg3_v76 (V : Valuation τ sig (Elt F)) :
    after (hostOps5 (F := F)) V (Proc.devRef .tc main_v76) = aggr64 (V (Proc.devRef .tc main_v63)) (V (Proc.devRef .tc main_v3)) (V (Proc.devRef .tc main_v6)) (V (Proc.devRef .tc main_v30)) := by
  after_results_simp; rfl
theorem agg3_v77 (V : Valuation τ sig (Elt F)) :
    after (hostOps5 (F := F)) V (Proc.devRef .tc main_v77) = row64 (V (Proc.devRef .tc main_arg7)) := by
  after_results; rfl

end Cert.Gcn.KernelHost

end
-- ==== Proof.KChain.lean ====
/-
  What the idealized kernel's result array holds after its run, as a function of the arguments.

  The run's buffer contents are a fold through twelve segments: the edge normalisation (three stretches of host
  operations), then per layer a pipelined dense product, a stretch of host operations (the aggregation and the bias
  reshaped to one row), and a pipelined epilogue.  A region rewrites only its own output array, with the dense stage of
  what it found in its two input arrays (the six hypotheses of the theorem, one per region); a stretch of host operations
  writes none of the buffers a later segment reads.  Walking the boundaries in order gives the network of the arguments.
-/
import proofs.«153782_j69389491634483_1_alg».proof.Proof.KHost

set_option maxRecDepth 16384

noncomputable section

namespace Cert.Gcn.KernelValue

open Cert.KernelIdeal Cert.KernelIdeal.Gen Idealize.ShloMosaic Idealize.ShloMosaic.TcCoe Idealize.SL.Sem Idealize.ShloMosaic.StableHlo
open Cert.Gcn Cert.Gcn.KernelHost

/-! ## The boundaries in order -/

set_option maxHeartbeats 8000000 in
/-- Given what each region leaves in its output array (the dense stage of its two input arrays as it found them), the
    result array after the last region holds the network of the launch contents of the arguments. -/
theorem result
    (hL0 : ∀ (V : (c : Dev nD) → (b : Ref sig .tc) → Buf (Elt Ideal) ((c : Thread nD τ).loc b)) (c : Dev nD), (dat0 (F := Ideal) V c).arrAt 2 cfg0.N = linear (V c main_arg0) (V c main_arg2))
    (hB1 : ∀ (V : (c : Dev nD) → (b : Ref sig .tc) → Buf (Elt Ideal) ((c : Thread nD τ).loc b)) (c : Dev nD), (dat1 (F := Ideal) V c).arrAt 2 cfg1.N = biasRelu (V c main_v44) (V c main_v45))
    (hL2 : ∀ (V : (c : Dev nD) → (b : Ref sig .tc) → Buf (Elt Ideal) ((c : Thread nD τ).loc b)) (c : Dev nD), (dat2 (F := Ideal) V c).arrAt 2 cfg2.N = linear (V c main_v46) (V c main_arg4))
    (hB3 : ∀ (V : (c : Dev nD) → (b : Ref sig .tc) → Buf (Elt Ideal) ((c : Thread nD τ).loc b)) (c : Dev nD), (dat3 (F := Ideal) V c).arrAt 2 cfg3.N = biasRelu (V c main_v60) (V c main_v61))
    (hL4 : ∀ (V : (c : Dev nD) → (b : Ref sig .tc) → Buf (Elt Ideal) ((c : Thread nD τ).loc b)) (c : Dev nD), (dat4 (F := Ideal) V c).arrAt 2 cfg4.N = linear (V c main_v62) (V c main_arg6))
    (hS5 : ∀ (V : (c : Dev nD) → (b : Ref sig .tc) → Buf (Elt Ideal) ((c : Thread nD τ).loc b)) (c : Dev nD), (dat5 (F := Ideal) V c).arrAt 2 cfg5.N = logSoftmaxBias (V c main_v76) (V c main_v77))
    (m : (ℓ : Loc nD τ sig) → Buf (Elt Ideal) ℓ) (ρ : Dev nD → PrngReg) (c : Dev nD) :
    W12 m ρ c (Proc.devRef .tc main_v78)
      = gcn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show _ = (logSoftmaxBias (aggr64 (linear (biasRelu (aggr128 (linear (biasRelu (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg3)))) (m ((c.tc : Thread nD τ).loc main_arg4))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg5)))) (m ((c.tc : Thread nD τ).loc main_arg6))) (edgeSrc (m ((c.tc : Thread nD τ).loc main_arg1))) (edgeDst (m ((c.tc : Thread nD τ).loc main_arg1))) (edgeNorm (m ((c.tc : Thread nD τ).loc main_arg1)))) (row64 (m ((c.tc : Thread nD τ).loc main_arg7))))
  have h3_main_v3 : W3 m ρ c (Proc.devRef .tc main_v3) = (edgeSrc (m ((c.tc : Thread nD τ).loc main_arg1))) := pre_v3 (W0 m ρ c)
  have h3_main_v6 : W3 m ρ c (Proc.devRef .tc main_v6) = (edgeDst (m ((c.tc : Thread nD τ).loc main_arg1))) := pre_v6 (W0 m ρ c)
  have h3_main_v30 : W3 m ρ c (Proc.devRef .tc main_v30) = (edgeNorm (m ((c.tc : Thread nD τ).loc main_arg1))) := pre_v30 (W0 m ρ c)
  have h3_main_arg0 : W3 m ρ c (Proc.devRef .tc main_arg0) = (m ((c.tc : Thread nD τ).loc main_arg0)) := pre_keep_main_arg0 (W0 m ρ c)
  have h3_main_arg2 : W3 m ρ c (Proc.devRef .tc main_arg2) = (m ((c.tc : Thread nD τ).loc main_arg2)) := pre_keep_main_arg2 (W0 m ρ c)
  have h3_main_arg3 : W3 m ρ c (Proc.devRef .tc main_arg3) = (m ((c.tc : Thread nD τ).loc main_arg3)) := pre_keep_main_arg3 (W0 m ρ c)
  have h3_main_arg4 : W3 m ρ c (Proc.devRef .tc main_arg4) = (m ((c.tc : Thread nD τ).loc main_arg4)) := pre_keep_main_arg4 (W0 m ρ c)
  have h3_main_arg5 : W3 m ρ c (Proc.devRef .tc main_arg5) = (m ((c.tc : Thread nD τ).loc main_arg5)) := pre_keep_main_arg5 (W0 m ρ c)
  have h3_main_arg6 : W3 m ρ c (Proc.devRef .tc main_arg6) = (m ((c.tc : Thread nD τ).loc main_arg6)) := pre_keep_main_arg6 (W0 m ρ c)
  have h3_main_arg7 : W3 m ρ c (Proc.devRef .tc main_arg7) = (m ((c.tc : Thread nD τ).loc main_arg7)) := pre_keep_main_arg7 (W0 m ρ c)
  have h4_main_v31 : W4 m ρ c (Proc.devRef .tc main_v31) = (linear (m ((c.tc : Thread nD τ).loc main_arg0)) (m ((c.tc : Thread nD τ).loc main_arg2))) := by
    refine (W4_arr m ρ c 2).trans ((hL0 (V3 m ρ) c).trans ?_)
    show linear (W3 m ρ c (Proc.devRef .tc main_arg0)) (W3 m ρ c (Proc.devRef .tc main_arg2)) = _
    rw [h3_main_arg0, h3_main_arg2]
  have h4_main_v3 : W4 m ρ c (Proc.devRef .tc main_v3) = (edgeSrc (m ((c.tc : Thread nD τ).loc main_arg1))) := (W4_of_ne m ρ c main_v3 (by decide)).trans h3_main_v3
  have h4_main_v6 : W4 m ρ c (Proc.devRef .tc main_v6) = (edgeDst (m ((c.tc : Thread nD τ).loc main_arg1))) := (W4_of_ne m ρ c main_v6 (by decide)).trans h3_main_v6
  have h4_main_v30 : W4 m ρ c (Proc.devRef .tc main_v30) = (edgeNorm (m ((c.tc : Thread nD τ).loc main_arg1))) := (W4_of_ne m ρ c main_v30 (by decide)).trans h3_main_v30
  have h4_main_arg3 : W4 m ρ c (Proc.devRef .tc main_arg3) = (m ((c.tc : Thread nD τ).loc main_arg3)) := (W4_of_ne m ρ c main_arg3 (by decide)).trans h3_main_arg3
  have h4_main_arg4 : W4 m ρ c (Proc.devRef .tc main_arg4) = (m ((c.tc : Thread nD τ).loc main_arg4)) := (W4_of_ne m ρ c main_arg4 (by decide)).trans h3_main_arg4
  have h4_main_arg5 : W4 m ρ c (Proc.devRef .tc main_arg5) = (m ((c.tc : Thread nD τ).loc main_arg5)) := (W4_of_ne m ρ c main_arg5 (by decide)).trans h3_main_arg5
  have h4_main_arg6 : W4 m ρ c (Proc.devRef .tc main_arg6) = (m ((c.tc : Thread nD τ).loc main_arg6)) := (W4_of_ne m ρ c main_arg6 (by decide)).trans h3_main_arg6
  have h4_main_arg7 : W4 m ρ c (Proc.devRef .tc main_arg7) = (m ((c.tc : Thread nD τ).loc main_arg7)) := (W4_of_ne m ρ c main_arg7 (by decide)).trans h3_main_arg7
  have h5_main_v44 : W5 m ρ c (Proc.devRef .tc main_v44) = (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) := by
    refine (agg1_v44 (W4 m ρ c)).trans ?_
    rw [h4_main_v31, h4_main_v3, h4_main_v6, h4_main_v30]
  have h5_main_v45 : W5 m ρ c (Proc.devRef .tc main_v45) = row128 (m ((c.tc : Thread nD τ).loc main_arg3)) := by
    refine (agg1_v45 (W4 m ρ c)).trans ?_
    rw [h4_main_arg3]
  have h5_main_arg4 : W5 m ρ c (Proc.devRef .tc main_arg4) = (m ((c.tc : Thread nD τ).loc main_arg4)) := (agg1_keep_main_arg4 (W4 m ρ c)).trans h4_main_arg4
  have h5_main_arg5 : W5 m ρ c (Proc.devRef .tc main_arg5) = (m ((c.tc : Thread nD τ).loc main_arg5)) := (agg1_keep_main_arg5 (W4 m ρ c)).trans h4_main_arg5
  have h5_main_arg6 : W5 m ρ c (Proc.devRef .tc main_arg6) = (m ((c.tc : Thread nD τ).loc main_arg6)) := (agg1_keep_main_arg6 (W4 m ρ c)).trans h4_main_arg6
  have h5_main_arg7 : W5 m ρ c (Proc.devRef .tc main_arg7) = (m ((c.tc : Thread nD τ).loc main_arg7)) := (agg1_keep_main_arg7 (W4 m ρ c)).trans h4_main_arg7
  have h5_main_v3 : W5 m ρ c (Proc.devRef .tc main_v3) = (edgeSrc (m ((c.tc : Thread nD τ).loc main_arg1))) := (agg1_keep_main_v3 (W4 m ρ c)).trans h4_main_v3
  have h5_main_v6 : W5 m ρ c (Proc.devRef .tc main_v6) = (edgeDst (m ((c.tc : Thread nD τ).loc main_arg1))) := (agg1_keep_main_v6 (W4 m ρ c)).trans h4_main_v6
  have h5_main_v30 : W5 m ρ c (Proc.devRef .tc main_v30) = (edgeNorm (m ((c.tc : Thread nD τ).loc main_arg1))) := (agg1_keep_main_v30 (W4 m ρ c)).trans h4_main_v30
  have h6_main_v46 : W6 m ρ c (Proc.devRef .tc main_v46) = (biasRelu (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg3)))) := by
    refine (W6_arr m ρ c 2).trans ((hB1 (V5 m ρ) c).trans ?_)
    show biasRelu (W5 m ρ c (Proc.devRef .tc main_v44)) (W5 m ρ c (Proc.devRef .tc main_v45)) = _
    rw [h5_main_v44, h5_main_v45]
  have h6_main_arg4 : W6 m ρ c (Proc.devRef .tc main_arg4) = (m ((c.tc : Thread nD τ).loc main_arg4)) := (W6_of_ne m ρ c main_arg4 (by decide)).trans h5_main_arg4
  have h6_main_arg5 : W6 m ρ c (Proc.devRef .tc main_arg5) = (m ((c.tc : Thread nD τ).loc main_arg5)) := (W6_of_ne m ρ c main_arg5 (by decide)).trans h5_main_arg5
  have h6_main_arg6 : W6 m ρ c (Proc.devRef .tc main_arg6) = (m ((c.tc : Thread nD τ).loc main_arg6)) := (W6_of_ne m ρ c main_arg6 (by decide)).trans h5_main_arg6
  have h6_main_arg7 : W6 m ρ c (Proc.devRef .tc main_arg7) = (m ((c.tc : Thread nD τ).loc main_arg7)) := (W6_of_ne m ρ c main_arg7 (by decide)).trans h5_main_arg7
  have h6_main_v3 : W6 m ρ c (Proc.devRef .tc main_v3) = (edgeSrc (m ((c.tc : Thread nD τ).loc main_arg1))) := (W6_of_ne m ρ c main_v3 (by decide)).trans h5_main_v3
  have h6_main_v6 : W6 m ρ c (Proc.devRef .tc main_v6) = (edgeDst (m ((c.tc : Thread nD τ).loc main_arg1))) := (W6_of_ne m ρ c main_v6 (by decide)).trans h5_main_v6
  have h6_main_v30 : W6 m ρ c (Proc.devRef .tc main_v30) = (edgeNorm (m ((c.tc : Thread nD τ).loc main_arg1))) := (W6_of_ne m ρ c main_v30 (by decide)).trans h5_main_v30
  have h7_main_v47 : W7 m ρ c (Proc.devRef .tc main_v47) = (linear (biasRelu (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg3)))) (m ((c.tc : Thread nD τ).loc main_arg4))) := by
    refine (W7_arr m ρ c 2).trans ((hL2 (V6 m ρ) c).trans ?_)
    show linear (W6 m ρ c (Proc.devRef .tc main_v46)) (W6 m ρ c (Proc.devRef .tc main_arg4)) = _
    rw [h6_main_v46, h6_main_arg4]
  have h7_main_arg5 : W7 m ρ c (Proc.devRef .tc main_arg5) = (m ((c.tc : Thread nD τ).loc main_arg5)) := (W7_of_ne m ρ c main_arg5 (by decide)).trans h6_main_arg5
  have h7_main_arg6 : W7 m ρ c (Proc.devRef .tc main_arg6) = (m ((c.tc : Thread nD τ).loc main_arg6)) := (W7_of_ne m ρ c main_arg6 (by decide)).trans h6_main_arg6
  have h7_main_arg7 : W7 m ρ c (Proc.devRef .tc main_arg7) = (m ((c.tc : Thread nD τ).loc main_arg7)) := (W7_of_ne m ρ c main_arg7 (by decide)).trans h6_main_arg7
  have h7_main_v3 : W7 m ρ c (Proc.devRef .tc main_v3) = (edgeSrc (m ((c.tc : Thread nD τ).loc main_arg1))) := (W7_of_ne m ρ c main_v3 (by decide)).trans h6_main_v3
  have h7_main_v6 : W7 m ρ c (Proc.devRef .tc main_v6) = (edgeDst (m ((c.tc : Thread nD τ).loc main_arg1))) := (W7_of_ne m ρ c main_v6 (by decide)).trans h6_main_v6
  have h7_main_v30 : W7 m ρ c (Proc.devRef .tc main_v30) = (edgeNorm (m ((c.tc : Thread nD τ).loc main_arg1))) := (W7_of_ne m ρ c main_v30 (by decide)).trans h6_main_v30
  have h8_main_v60 : W8 m ρ c (Proc.devRef .tc main_v60) = (aggr128 (linear (biasRelu (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg3)))) (m ((c.tc : Thread nD τ).loc main_arg4))) (edgeSrc (m ((c.tc : Thread nD τ).loc main_arg1))) (edgeDst (m ((c.tc : Thread nD τ).loc main_arg1))) (edgeNorm (m ((c.tc : Thread nD τ).loc main_arg1)))) := by
    refine (agg2_v60 (W7 m ρ c)).trans ?_
    rw [h7_main_v47, h7_main_v3, h7_main_v6, h7_main_v30]
  have h8_main_v61 : W8 m ρ c (Proc.devRef .tc main_v61) = row128 (m ((c.tc : Thread nD τ).loc main_arg5)) := by
    refine (agg2_v61 (W7 m ρ c)).trans ?_
    rw [h7_main_arg5]
  have h8_main_arg6 : W8 m ρ c (Proc.devRef .tc main_arg6) = (m ((c.tc : Thread nD τ).loc main_arg6)) := (agg2_keep_main_arg6 (W7 m ρ c)).trans h7_main_arg6
  have h8_main_arg7 : W8 m ρ c (Proc.devRef .tc main_arg7) = (m ((c.tc : Thread nD τ).loc main_arg7)) := (agg2_keep_main_arg7 (W7 m ρ c)).trans h7_main_arg7
  have h8_main_v3 : W8 m ρ c (Proc.devRef .tc main_v3) = (edgeSrc (m ((c.tc : Thread nD τ).loc main_arg1))) := (agg2_keep_main_v3 (W7 m ρ c)).trans h7_main_v3
  have h8_main_v6 : W8 m ρ c (Proc.devRef .tc main_v6) = (edgeDst (m ((c.tc : Thread nD τ).loc main_arg1))) := (agg2_keep_main_v6 (W7 m ρ c)).trans h7_main_v6
  have h8_main_v30 : W8 m ρ c (Proc.devRef .tc main_v30) = (edgeNorm (m ((c.tc : Thread nD τ).loc main_arg1))) := (agg2_keep_main_v30 (W7 m ρ c)).trans h7_main_v30
  have h9_main_v62 : W9 m ρ c (Proc.devRef .tc main_v62) = (biasRelu (aggr128 (linear (biasRelu (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg3)))) (m ((c.tc : Thread nD τ).loc main_arg4))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg5)))) := by
    refine (W9_arr m ρ c 2).trans ((hB3 (V8 m ρ) c).trans ?_)
    show biasRelu (W8 m ρ c (Proc.devRef .tc main_v60)) (W8 m ρ c (Proc.devRef .tc main_v61)) = _
    rw [h8_main_v60, h8_main_v61]
  have h9_main_arg6 : W9 m ρ c (Proc.devRef .tc main_arg6) = (m ((c.tc : Thread nD τ).loc main_arg6)) := (W9_of_ne m ρ c main_arg6 (by decide)).trans h8_main_arg6
  have h9_main_arg7 : W9 m ρ c (Proc.devRef .tc main_arg7) = (m ((c.tc : Thread nD τ).loc main_arg7)) := (W9_of_ne m ρ c main_arg7 (by decide)).trans h8_main_arg7
  have h9_main_v3 : W9 m ρ c (Proc.devRef .tc main_v3) = (edgeSrc (m ((c.tc : Thread nD τ).loc main_arg1))) := (W9_of_ne m ρ c main_v3 (by decide)).trans h8_main_v3
  have h9_main_v6 : W9 m ρ c (Proc.devRef .tc main_v6) = (edgeDst (m ((c.tc : Thread nD τ).loc main_arg1))) := (W9_of_ne m ρ c main_v6 (by decide)).trans h8_main_v6
  have h9_main_v30 : W9 m ρ c (Proc.devRef .tc main_v30) = (edgeNorm (m ((c.tc : Thread nD τ).loc main_arg1))) := (W9_of_ne m ρ c main_v30 (by decide)).trans h8_main_v30
  have h10_main_v63 : W10 m ρ c (Proc.devRef .tc main_v63) = (linear (biasRelu (aggr128 (linear (biasRelu (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg3)))) (m ((c.tc : Thread nD τ).loc main_arg4))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg5)))) (m ((c.tc : Thread nD τ).loc main_arg6))) := by
    refine (W10_arr m ρ c 2).trans ((hL4 (V9 m ρ) c).trans ?_)
    show linear (W9 m ρ c (Proc.devRef .tc main_v62)) (W9 m ρ c (Proc.devRef .tc main_arg6)) = _
    rw [h9_main_v62, h9_main_arg6]
  have h10_main_arg7 : W10 m ρ c (Proc.devRef .tc main_arg7) = (m ((c.tc : Thread nD τ).loc main_arg7)) := (W10_of_ne m ρ c main_arg7 (by decide)).trans h9_main_arg7
  have h10_main_v3 : W10 m ρ c (Proc.devRef .tc main_v3) = (edgeSrc (m ((c.tc : Thread nD τ).loc main_arg1))) := (W10_of_ne m ρ c main_v3 (by decide)).trans h9_main_v3
  have h10_main_v6 : W10 m ρ c (Proc.devRef .tc main_v6) = (edgeDst (m ((c.tc : Thread nD τ).loc main_arg1))) := (W10_of_ne m ρ c main_v6 (by decide)).trans h9_main_v6
  have h10_main_v30 : W10 m ρ c (Proc.devRef .tc main_v30) = (edgeNorm (m ((c.tc : Thread nD τ).loc main_arg1))) := (W10_of_ne m ρ c main_v30 (by decide)).trans h9_main_v30
  have h11_main_v76 : W11 m ρ c (Proc.devRef .tc main_v76) = (aggr64 (linear (biasRelu (aggr128 (linear (biasRelu (aggr128 (linear (m ((c.tc : Thread nD τ).loc main_arg0)) (m ((c.tc : Thread nD τ).loc main_arg2))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg3)))) (m ((c.tc : Thread nD τ).loc main_arg4))) (edgeSrc (m ((c.tc : Thread nD τ).loc main_arg1))) (edgeDst (m ((c.tc : Thread nD τ).loc main_arg1))) (edgeNorm (m ((c.tc : Thread nD τ).loc main_arg1)))) (row128 (m ((c.tc : Thread nD τ).loc main_arg5)))) (m ((c.tc : Thread nD τ).loc main_arg6))) (edgeSrc (m ((c.tc : Thread nD τ).loc main_arg1))) (edgeDst (m ((c.tc : Thread nD τ).loc main_arg1))) (edgeNorm (m ((c.tc : Thread nD τ).loc main_arg1)))) := by
    refine (agg3_v76 (W10 m ρ c)).trans ?_
    rw [h10_main_v63, h10_main_v3, h10_main_v6, h10_main_v30]
  have h11_main_v77 : W11 m ρ c (Proc.devRef .tc main_v77) = row64 (m ((c.tc : Thread nD τ).loc main_arg7)) := by
    refine (agg3_v77 (W10 m ρ c)).trans ?_
    rw [h10_main_arg7]
  refine (W12_arr m ρ c 2).trans ((hS5 (V11 m ρ) c).trans ?_)
  show logSoftmaxBias (W11 m ρ c (Proc.devRef .tc main_v76)) (W11 m ρ c (Proc.devRef .tc main_v77)) = _
  rw [h11_main_v76, h11_main_v77]

end Cert.Gcn.KernelValue

end
-- ==== Proof.Linear0.lean ====
/-
  The first dense stage of the network as the kernel computes it, row block by row block, is the dense product x · W of the whole arrays.
-/
import proofs.«153782_j69389491634483_1_alg».proof.Proof.Gen.KernelIdeal.Frame
import proofs.«153782_j69389491634483_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Kernel

open Cert.KernelIdeal Cert.KernelIdeal.Gen Idealize.ShloMosaic Idealize.ShloMosaic.TcCoe Idealize.SL.Sem Idealize.ShloMosaic.ValueIdx

/-! ## One block times the weight, entry by entry -/

/-- The contraction of the product runs over the block's second axis and the weight's first: at output entry
    (p, q) and contraction position k the left factor sits in row p, the kept coordinate. -/
theorem lhs0_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and in column k, the contracted coordinate. -/
theorem lhs0_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right factor sits in row k of the weight, the contracted coordinate, … -/
theorem rhs0_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and in column q, the kept coordinate. -/
theorem rhs0_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at entry (p, q) of a block: the two loaded blocks keep their values when narrowed (the narrowing is
    the identity on the extended reals), the accumulator starts at zero, so the entry is the sum over the 128 features k of
    the block's (p, k) entry times the weight's (k, q) entry. -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs0_row _ _
    | ⟨1, _⟩ => exact (lhs0_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs0_row _ _).trans hk
    | ⟨1, _⟩ => exact rhs0_col _ _)
  rw [el, er]
  rfl

/-! ## From blocks to the array -/

variable (V : (c : Dev nD) → (b : Ref sig .tc) → Buf (Elt Ideal) ((c : Thread nD τ).loc b)) (c : Dev nD)

/-- The zero offsets of a whole-buffer access, as a constant function. -/
theorem zero_off0 : (![0, 0] : Fin 2 → Nat) = fun _ => 0 := funext fun a => by fin_cases a <;> rfl

/-- Two blocks with the same entries are the same block. -/
theorem blk_ext0 (f g : Vec Ideal S5000x128 .f32) (h : ∀ (p : Fin 5000) (q : Fin 128), f (ix2 p q) = g (ix2 p q)) : f = g :=
  funext fun j => by rw [eq_ix2 j]; exact h _ _

/-- Where the grid's 20 points put their blocks (decided point by point): point t takes row block t of x and of the
    result, all columns; the weight is taken whole at every point. -/
theorem blk_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of point t's block of x is entry (5000·t + p, k) of x. -/
theorem xblk0 (t : Fin cfg0.N) (p : Fin 5000) (k : Fin 128) (r : Fin 100000) (hr : r.val = 5000 * t.val + p.val) :
    (iblk0 (F := Ideal) V c 0 t : Vec Ideal S5000x128 .f32) (ix2 p k) = V c main_arg0 (ix2 r k) := by
  obtain ⟨e0, e1, -, -, -, -⟩ := blk_index0 t
  show V c main_arg0 (((cfg0.win 0).blk t).view.emb (ix2 p k)) = V c main_arg0 (ix2 r k)
  have h : ((cfg0.win 0).blk t).view.emb (ix2 p k) = ix2 r k := by
    funext a; apply Fin.ext
    match a with
    | ⟨0, _⟩ => show win0_0.index t (0 : Fin 2) * 5000 + 1 * p.val = r.val; omega
    | ⟨1, _⟩ => show win0_0.index t (1 : Fin 2) * 128 + 1 * k.val = k.val; omega
  rw [h]

/-- Entry (k, q) of point t's block of the weight is entry (k, q) of the weight: the block is the whole matrix. -/
theorem wblk0 (t : Fin cfg0.N) (k : Fin 128) (q : Fin 128) (j : Fin 128) (hj : j.val = q.val) :
    (iblk0 (F := Ideal) V c 1 t : Vec Ideal S128x128 .f32) (ix2 k q) = V c main_arg2 (ix2 k j) := by
  obtain ⟨-, -, e2, e3, -, -⟩ := blk_index0 t
  show V c main_arg2 (((cfg0.win 1).blk t).view.emb (ix2 k q)) = V c main_arg2 (ix2 k j)
  have h : ((cfg0.win 1).blk t).view.emb (ix2 k q) = ix2 k j := by
    funext a; apply Fin.ext
    match a with
    | ⟨0, _⟩ => show win0_1.index t (0 : Fin 2) * 128 + 1 * k.val = k.val; omega
    | ⟨1, _⟩ => show win0_1.index t (1 : Fin 2) * 128 + 1 * q.val = j.val; omega
  rw [h]

/-- What point t writes back is row block t of x · W: entry (p, q) of the written block is the sum over k of
    x[5000·t + p, k] · W[k, q], which is entry (5000·t + p, q) of the product of the whole arrays. -/
theorem flushed0_eq (t : Fin cfg0.N) :
    (dat0 (F := Ideal) V c).flushed 2 t
      = ((cfg0.win 2).blk t).view.read (Elt Ideal) (Cert.Gcn.linear (V c main_arg0) (V c main_arg2)) := by
  show (cfg0.win 2).cut (grid0.coords t) ((dat0 (F := Ideal) V c).after 2 t) = _
  rw [after0_2 V c t]
  unfold out0_2
  rw [View.canon_unit_zero zero_off0]
  simp only [View.ld_unit_zero (S := S5000x128) zero_off0, View.ld_unit_zero (S := S128x128) zero_off0]
  obtain ⟨-, -, -, -, e4, e5⟩ := blk_index0 t
  refine blk_ext0 _ _ fun p q => ?_
  show k0_pay1 (F := Ideal) (iblk0 V c 0 t) (iblk0 V c 1 t) (ix2 p q)
    = Cert.Gcn.linear (V c main_arg0) (V c main_arg2) (((cfg0.win 2).blk t).view.emb (ix2 p q))
  refine (pay0_apply _ _ p q).trans ?_
  show _ = ∑ k : Fin 128, _
  refine Finset.sum_congr rfl fun k _ => ?_
  exact congrArg₂ (· * ·)
    (xblk0 V c t p k _ (by show win0_2.index t (0 : Fin 2) * 5000 + 1 * p.val = _; omega))
    (wblk0 V c t k q _ (by show win0_2.index t (1 : Fin 2) * 128 + 1 * q.val = _; omega))

/-- An index of the result array lies in point t's block exactly when, on each axis, its coordinate is within the
    block's range there. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v31).slice (win0_2.rect t)).set ↔ _
  rw [View.set_slice_whole, Rect.mem_set_unit]
  exact Iff.rfl

/-- Every entry of the result is written: row r belongs to the block of point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e4, e5⟩ := blk_index0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 128 ≤ (i 1).val ∧ (i 1).val < win0_2.index t (1 : Fin 2) * 128 + 128
    omega

/-- The result array after the 20 points is the dense product of the two arrays the region found. -/
theorem linear0 : (dat0 (F := Ideal) V c).arrAt 2 cfg0.N = Cert.Gcn.linear (V c main_arg0) (V c main_arg2) :=
  (dat0 (F := Ideal) V c).arrAt_eq_of_cover 2 (Cert.Gcn.linear (V c main_arg0) (V c main_arg2))
    (fun t _ => flushed0_eq V c t) (cover0)

end Cert.Gcn.Kernel

end
-- ==== Proof.Linear2.lean ====
/-
  The second dense stage of the network as the kernel computes it, row block by row block, is the dense product h · W of the whole arrays.
-/
import proofs.«153782_j69389491634483_1_alg».proof.Proof.Gen.KernelIdeal.Frame
import proofs.«153782_j69389491634483_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Kernel

open Cert.KernelIdeal Cert.KernelIdeal.Gen Idealize.ShloMosaic Idealize.ShloMosaic.TcCoe Idealize.SL.Sem Idealize.ShloMosaic.ValueIdx

/-! ## One block times the weight, entry by entry -/

/-- The contraction of the product runs over the block's second axis and the weight's first: at output entry
    (p, q) and contraction position k the left factor sits in row p, the kept coordinate. -/
theorem lhs2_row (i : S5000x128.Idx) (k : dot_S5000x128_S128x128_S5000x128_1_0_0_1_n_n.contr.Idx) :
    (dot_S5000x128_S128x128_S5000x128_1_0_0_1_n_n.lhsIdx i k 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and in column k, the contracted coordinate. -/
theorem lhs2_col (i : S5000x128.Idx) (k : dot_S5000x128_S128x128_S5000x128_1_0_0_1_n_n.contr.Idx) :
    (dot_S5000x128_S128x128_S5000x128_1_0_0_1_n_n.lhsIdx i k 1).val = (k ⟨0, by decide⟩).val :=
  dot_S5000x128_S128x128_S5000x128_1_0_0_1_n_n.lhsIdx_val_of_single rfl i k
/-- The right factor sits in row k of the weight, the contracted coordinate, … -/
theorem rhs2_row (i : S5000x128.Idx) (k : dot_S5000x128_S128x128_S5000x128_1_0_0_1_n_n.contr.Idx) :
    (dot_S5000x128_S128x128_S5000x128_1_0_0_1_n_n.rhsIdx i k 0).val = (k ⟨0, by decide⟩).val :=
  dot_S5000x128_S128x128_S5000x128_1_0_0_1_n_n.rhsIdx_val_of_single rfl i k
/-- … and in column q, the kept coordinate. -/
theorem rhs2_col (i : S5000x128.Idx) (k : dot_S5000x128_S128x128_S5000x128_1_0_0_1_n_n.contr.Idx) :
    (dot_S5000x128_S128x128_S5000x128_1_0_0_1_n_n.rhsIdx i k 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's value at entry (p, q) of a block: the loaded block is first recast to its own shape, which changes nothing; the two loaded blocks keep their values when narrowed (the narrowing is
    the identity on the extended reals), the accumulator starts at zero, so the entry is the sum over the 128 features k of
    the block's (p, k) entry times the weight's (k, q) entry. -/
theorem pay2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  refine (Ideal.matmul_constant_zero_apply dot_S5000x128_S128x128_S5000x128_1_0_0_1_n_n none _ _ (ix2 p q)).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs2_row _ _
    | ⟨1, _⟩ => exact (lhs2_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs2_row _ _).trans hk
    | ⟨1, _⟩ => exact rhs2_col _ _)
  rw [el, er]
  exact congrArg (· * x1 (ix2 k q)) (congrFun (shapeCast_self x0 shapeCasts_S5000x128_S5000x128) (ix2 p k))

/-! ## From blocks to the array -/

variable (V : (c : Dev nD) → (b : Ref sig .tc) → Buf (Elt Ideal) ((c : Thread nD τ).loc b)) (c : Dev nD)

/-- The zero offsets of a whole-buffer access, as a constant function. -/
theorem zero_off2 : (![0, 0] : Fin 2 → Nat) = fun _ => 0 := funext fun a => by fin_cases a <;> rfl

/-- Two blocks with the same entries are the same block. -/
theorem blk_ext2 (f g : Vec Ideal S5000x128 .f32) (h : ∀ (p : Fin 5000) (q : Fin 128), f (ix2 p q) = g (ix2 p q)) : f = g :=
  funext fun j => by rw [eq_ix2 j]; exact h _ _

/-- Where the grid's 20 points put their blocks (decided point by point): point t takes row block t of x and of the
    result, all columns; the weight is taken whole at every point. -/
theorem blk_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of point t's block of x is entry (5000·t + p, k) of x. -/
theorem xblk2 (t : Fin cfg2.N) (p : Fin 5000) (k : Fin 128) (r : Fin 100000) (hr : r.val = 5000 * t.val + p.val) :
    (iblk2 (F := Ideal) V c 0 t : Vec Ideal S5000x128 .f32) (ix2 p k) = V c main_v46 (ix2 r k) := by
  obtain ⟨e0, e1, -, -, -, -⟩ := blk_index2 t
  show V c main_v46 (((cfg2.win 0).blk t).view.emb (ix2 p k)) = V c main_v46 (ix2 r k)
  have h : ((cfg2.win 0).blk t).view.emb (ix2 p k) = ix2 r k := by
    funext a; apply Fin.ext
    match a with
    | ⟨0, _⟩ => show win2_0.index t (0 : Fin 2) * 5000 + 1 * p.val = r.val; omega
    | ⟨1, _⟩ => show win2_0.index t (1 : Fin 2) * 128 + 1 * k.val = k.val; omega
  rw [h]

/-- Entry (k, q) of point t's block of the weight is entry (k, q) of the weight: the block is the whole matrix. -/
theorem wblk2 (t : Fin cfg2.N) (k : Fin 128) (q : Fin 128) (j : Fin 128) (hj : j.val = q.val) :
    (iblk2 (F := Ideal) V c 1 t : Vec Ideal S128x128 .f32) (ix2 k q) = V c main_arg4 (ix2 k j) := by
  obtain ⟨-, -, e2, e3, -, -⟩ := blk_index2 t
  show V c main_arg4 (((cfg2.win 1).blk t).view.emb (ix2 k q)) = V c main_arg4 (ix2 k j)
  have h : ((cfg2.win 1).blk t).view.emb (ix2 k q) = ix2 k j := by
    funext a; apply Fin.ext
    match a with
    | ⟨0, _⟩ => show win2_1.index t (0 : Fin 2) * 128 + 1 * k.val = k.val; omega
    | ⟨1, _⟩ => show win2_1.index t (1 : Fin 2) * 128 + 1 * q.val = j.val; omega
  rw [h]

/-- What point t writes back is row block t of x · W: entry (p, q) of the written block is the sum over k of
    x[5000·t + p, k] · W[k, q], which is entry (5000·t + p, q) of the product of the whole arrays. -/
theorem flushed2_eq (t : Fin cfg2.N) :
    (dat2 (F := Ideal) V c).flushed 2 t
      = ((cfg2.win 2).blk t).view.read (Elt Ideal) (Cert.Gcn.linear (V c main_v46) (V c main_arg4)) := by
  show (cfg2.win 2).cut (grid2.coords t) ((dat2 (F := Ideal) V c).after 2 t) = _
  rw [after2_2 V c t]
  unfold out2_2
  rw [View.canon_unit_zero zero_off2]
  simp only [View.ld_unit_zero (S := S5000x128) zero_off2, View.ld_unit_zero (S := S128x128) zero_off2]
  obtain ⟨-, -, -, -, e4, e5⟩ := blk_index2 t
  refine blk_ext2 _ _ fun p q => ?_
  show k2_pay1 (F := Ideal) (iblk2 V c 0 t) (iblk2 V c 1 t) (ix2 p q)
    = Cert.Gcn.linear (V c main_v46) (V c main_arg4) (((cfg2.win 2).blk t).view.emb (ix2 p q))
  refine (pay2_apply _ _ p q).trans ?_
  show _ = ∑ k : Fin 128, _
  refine Finset.sum_congr rfl fun k _ => ?_
  exact congrArg₂ (· * ·)
    (xblk2 V c t p k _ (by show win2_2.index t (0 : Fin 2) * 5000 + 1 * p.val = _; omega))
    (wblk2 V c t k q _ (by show win2_2.index t (1 : Fin 2) * 128 + 1 * q.val = _; omega))

/-- An index of the result array lies in point t's block exactly when, on each axis, its coordinate is within the
    block's range there. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v47).slice (win2_2.rect t)).set ↔ _
  rw [View.set_slice_whole, Rect.mem_set_unit]
  exact Iff.rfl

/-- Every entry of the result is written: row r belongs to the block of point r / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨t, ht⟩ : ∃ t : Fin cfg2.N, t.val = (i 0).val / 5000 := ⟨⟨(i 0).val / 5000, by rw [hN]; omega⟩, rfl⟩
  obtain ⟨-, -, -, -, e4, e5⟩ := blk_index2 t
  refine ⟨t, flush2_2 t, ?_⟩
  rw [mem_blk2]
  intro a
  match a with
  | ⟨0, _⟩ =>
    show win2_2.index t (0 : Fin 2) * 5000 ≤ (i 0).val ∧ (i 0).val < win2_2.index t (0 : Fin 2) * 5000 + 5000
    omega
  | ⟨1, _⟩ =>
    show win2_2.index t (1 : Fin 2) * 128 ≤ (i 1).val ∧ (i 1).val < win2_2.index t (1 : Fin 2) * 128 + 128
    omega

/-- The result array after the 20 points is the dense product of the two arrays the region found. -/
theorem linear2 : (dat2 (F := Ideal) V c).arrAt 2 cfg2.N = Cert.Gcn.linear (V c main_v46) (V c main_arg4) :=
  (dat2 (F := Ideal) V c).arrAt_eq_of_cover 2 (Cert.Gcn.linear (V c main_v46) (V c main_arg4))
    (fun t _ => flushed2_eq V c t) (cover2)

end Cert.Gcn.Kernel

end
-- ==== Proof.Linear4.lean ====
/-
  The third dense stage of the network as the kernel computes it, row block by row block, is the dense product h · W of the whole arrays, with 64 output classes.
-/
import proofs.«153782_j69389491634483_1_alg».proof.Proof.Gen.KernelIdeal.Frame
import proofs.«153782_j69389491634483_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Kernel

open Cert.KernelIdeal Cert.KernelIdeal.Gen Idealize.ShloMosaic Idealize.ShloMosaic.TcCoe Idealize.SL.Sem Idealize.ShloMosaic.ValueIdx

/-! ## One block times the weight, entry by entry -/

/-- The contraction of the product runs over the block's second axis and the weight's first: at output entry
    (p, q) and contraction position k the left factor sits in row p, the kept coordinate. -/
theorem lhs4_row (i : S5000x64.Idx) (k : dot_S5000x128_S128x64_S5000x64_1_0_0_1_n_n.contr.Idx) :
    (dot_S5000x128_S128x64_S5000x64_1_0_0_1_n_n.lhsIdx i k 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … and in column k, the contracted coordinate. -/
theorem lhs4_col (i : S5000x64.Idx) (k : dot_S5000x128_S128x64_S5000x64_1_0_0_1_n_n.contr.Idx) :
    (dot_S5000x128_S128x64_S5000x64_1_0_0_1_n_n.lhsIdx i k 1).val = (k ⟨0, by decide⟩).val :=
  dot_S5000x128_S128x64_S5000x64_1_0_0_1_n_n.lhsIdx_val_of_single rfl i k
/-- The right factor sits in row k of the weight, the contracted coordinate, … -/
theorem rhs4_row (i : S5000x64.Idx) (k : dot_S5000x128_S128x64_S5000x64_1_0_0_1_n_n.contr.Idx) :
    (dot_S5000x128_S128x64_S5000x64_1_0_0_1_n_n.rhsIdx i k 0).val = (k ⟨0, by decide⟩).val :=
  dot_S5000x128_S128x64_S5000x64_1_0_0_1_n_n.rhsIdx_val_of_single rfl i k
/-- … and in column q, the kept coordinate. -/
theorem rhs4_col (i : S5000x64.Idx) (k : dot_S5000x128_S128x64_S5000x64_1_0_0_1_n_n.contr.Idx) :
    (dot_S5000x128_S128x64_S5000x64_1_0_0_1_n_n.rhsIdx i k 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at entry (p, q) of a block: the loaded block is first recast to its own shape, which changes nothing; the two loaded blocks keep their values when narrowed (the narrowing is
    the identity on the extended reals), the accumulator starts at zero, so the entry is the sum over the 128 features k of
    the block's (p, k) entry times the weight's (k, q) entry. -/
theorem pay4_apply (x0 : Vec Ideal S5000x128 .f32) (x1 : Vec Ideal S128x64 .f32) (p : Fin 5000) (q : Fin 64) :
    k4_pay1 (F := Ideal) x0 x1 (ix2 p q) = ∑ k : Fin 128, x0 (ix2 p k) * x1 (ix2 k q) := by
  unfold k4_pay1
  refine (Ideal.matmul_constant_zero_apply dot_S5000x128_S128x64_S5000x64_1_0_0_1_n_n none _ _ (ix2 p q)).trans ?_
  rw [← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx (ix2 p q) ((ValueIdx.contrEquiv1 dot_S5000x128_S128x64_S5000x64_1_0_0_1_n_n 128 rfl rfl).symm k) = ix2 p k := funext fun a => Fin.ext (by
    match a with
    | ⟨0, _⟩ => exact lhs4_row _ _
    | ⟨1, _⟩ => exact (lhs4_col _ _).trans hk)
  have er : dot_S5000x128_S128x64_S5000x64_1_0_0_1_n_n.rhsIdx (ix2 p q) ((ValueIdx.contrEquiv1 dot_S5000x128_S128x64_S5000x64_1_0_0_1_n_n 128 rfl rfl).symm k) = ix2 k q := funext fun a => Fin.ext (by
    match a with
    | ⟨0, _⟩ => exact (rhs4_row _ _).trans hk
    | ⟨1, _⟩ => exact rhs4_col _ _)
  rw [el, er]
  exact congrArg (· * x1 (ix2 k q)) (congrFun (shapeCast_self x0 shapeCasts_S5000x128_S5000x128) (ix2 p k))

/-! ## From blocks to the array -/

variable (V : (c : Dev nD) → (b : Ref sig .tc) → Buf (Elt Ideal) ((c : Thread nD τ).loc b)) (c : Dev nD)

/-- The zero offsets of a whole-buffer access, as a constant function. -/
theorem zero_off4 : (![0, 0] : Fin 2 → Nat) = fun _ => 0 := funext fun a => by fin_cases a <;> rfl

/-- Two blocks with the same entries are the same block. -/
theorem blk_ext4 (f g : Vec Ideal S5000x64 .f32) (h : ∀ (p : Fin 5000) (q : Fin 64), f (ix2 p q) = g (ix2 p q)) : f = g :=
  funext fun j => by rw [eq_ix2 j]; exact h _ _

/-- Where the grid's 20 points put their blocks (decided point by point): point t takes row block t of x and of the
    result, all columns; the weight is taken whole at every point. -/
theorem blk_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Entry (p, k) of point t's block of x is entry (5000·t + p, k) of x. -/
theorem xblk4 (t : Fin cfg4.N) (p : Fin 5000) (k : Fin 128) (r : Fin 100000) (hr : r.val = 5000 * t.val + p.val) :
    (iblk4 (F := Ideal) V c 0 t : Vec Ideal S5000x128 .f32) (ix2 p k) = V c main_v62 (ix2 r k) := by
  obtain ⟨e0, e1, -, -, -, -⟩ := blk_index4 t
  show V c main_v62 (((cfg4.win 0).blk t).view.emb (ix2 p k)) = V c main_v62 (ix2 r k)
  have h : ((cfg4.win 0).blk t).view.emb (ix2 p k) = ix2 r k := by
    funext a; apply Fin.ext
    match a with
    | ⟨0, _⟩ => show win4_0.index t (0 : Fin 2) * 5000 + 1 * p.val = r.val; omega
    | ⟨1, _⟩ => show win4_0.index t (1 : Fin 2) * 128 + 1 * k.val = k.val; omega
  rw [h]

/-- Entry (k, q) of point t's block of the weight is entry (k, q) of the weight: the block is the whole matrix. -/
theorem wblk4 (t : Fin cfg4.N) (k : Fin 128) (q : Fin 64) (j : Fin 64) (hj : j.val = q.val) :
    (iblk4 (F := Ideal) V c 1 t : Vec Ideal S128x64 .f32) (ix2 k q) = V c main_arg6 (ix2 k j) := by
  obtain ⟨-, -, e2, e3, -, -⟩ := blk_index4 t
  show V c main_arg6 (((cfg4.win 1).blk t).view.emb (ix2 k q)) = V c main_arg6 (ix2 k j)
  have h : ((cfg4.win 1).blk t).view.emb (ix2 k q) = ix2 k j := by
    funext a; apply Fin.ext
    match a with
    | ⟨0, _⟩ => show win4_1.index t (0 : Fin 2) * 128 + 1 * k.val = k.val; omega
    | ⟨1, _⟩ => show win4_1.index t (1 : Fin 2) * 64 + 1 * q.val = j.val; omega
  rw [h]

/-- What point t writes back is row block t of x · W: entry (p, q) of the written block is the sum over k of
    x[5000·t + p, k] · W[k, q], which is entry (5000·t + p, q) of the product of the whole arrays. -/
theorem flushed4_eq (t : Fin cfg4.N) :
    (dat4 (F := Ideal) V c).flushed 2 t
      = ((cfg4.win 2).blk t).view.read (Elt Ideal) (Cert.Gcn.linear (V c main_v62) (V c main_arg6)) := by
  show (cfg4.win 2).cut (grid4.coords t) ((dat4 (F := Ideal) V c).after 2 t) = _
  rw [after4_2 V c t]
  unfold out4_2
  rw [View.canon_unit_zero zero_off4]
  simp only [View.ld_unit_zero (S := S5000x128) zero_off4, View.ld_unit_zero (S := S128x64) zero_off4]
  obtain ⟨-, -, -, -, e4, e5⟩ := blk_index4 t
  refine blk_ext4 _ _ fun p q => ?_
  show k4_pay1 (F := Ideal) (iblk4 V c 0 t) (iblk4 V c 1 t) (ix2 p q)
    = Cert.Gcn.linear (V c main_v62) (V c main_arg6) (((cfg4.win 2).blk t).view.emb (ix2 p q))
  refine (pay4_apply _ _ p q).trans ?_
  show _ = ∑ k : Fin 128, _
  refine Finset.sum_congr rfl fun k _ => ?_
  exact congrArg₂ (· * ·)
    (xblk4 V c t p k _ (by show win4_2.index t (0 : Fin 2) * 5000 + 1 * p.val = _; omega))
    (wblk4 V c t k q _ (by show win4_2.index t (1 : Fin 2) * 64 + 1 * q.val = _; omega))

/-- An index of the result array lies in point t's block exactly when, on each axis, its coordinate is within the
    block's range there. -/
theorem mem_blk4 (t : Fin cfg4.N) (i : S100000x64.Idx) :
    i ∈ ((cfg4.win 2).blk t).view.set ↔ ∀ a : Fin 2, win4_2.index t a * S5000x64.size a ≤ (i a).val
      ∧ (i a).val < win4_2.index t a * S5000x64.size a + S5000x64.size a := by
  show i ∈ ((View.whole main_v63).slice (win4_2.rect t)).set ↔ _
  rw [View.set_slice_whole, Rect.mem_set_unit]
  exact Iff.rfl

/-- Every entry of the result is written: row r belongs to the block of point r / 5000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  obtain ⟨t, ht⟩ : ∃ t : Fin cfg4.N, t.val = (i 0).val / 5000 := ⟨⟨(i 0).val / 5000, by rw [hN]; omega⟩, rfl⟩
  obtain ⟨-, -, -, -, e4, e5⟩ := blk_index4 t
  refine ⟨t, flush4_2 t, ?_⟩
  rw [mem_blk4]
  intro a
  match a with
  | ⟨0, _⟩ =>
    show win4_2.index t (0 : Fin 2) * 5000 ≤ (i 0).val ∧ (i 0).val < win4_2.index t (0 : Fin 2) * 5000 + 5000
    omega
  | ⟨1, _⟩ =>
    show win4_2.index t (1 : Fin 2) * 64 ≤ (i 1).val ∧ (i 1).val < win4_2.index t (1 : Fin 2) * 64 + 64
    omega

/-- The result array after the 20 points is the dense product of the two arrays the region found. -/
theorem linear4 : (dat4 (F := Ideal) V c).arrAt 2 cfg4.N = Cert.Gcn.linear (V c main_v62) (V c main_arg6) :=
  (dat4 (F := Ideal) V c).arrAt_eq_of_cover 2 (Cert.Gcn.linear (V c main_v62) (V c main_arg6))
    (fun t _ => flushed4_eq V c t) (cover4)

end Cert.Gcn.Kernel

end
-- ==== Proof.BiasRelu1.lean ====
/-
  The bias-and-relu stage of layer one, read off the tiled kernel as one function of whole arrays.

  The kernel walks twenty row blocks.  At block t it holds rows 5000·t … 5000·t + 4999 of the aggregated
  activations (all 128 columns) together with the whole one-row bias, and stores, entry by entry,
  max (a[r, j] + b[0, j]) 0 into the same rows of the result.  Entry (r, j) of the result therefore depends
  only on a[r, j] and b[0, j]; the block that owns row r is block r / 5000, and the twenty blocks tile all
  100000 rows, so the result array is the whole-array function biasRelu a b.
-/
import proofs.«153782_j69389491634483_1_alg».proof.Proof.Gen.KernelIdeal.Frame
import proofs.«153782_j69389491634483_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Kernel

open Cert.KernelIdeal Cert.KernelIdeal.Gen Idealize.ShloMosaic Idealize.ShloMosaic.TcCoe Idealize.SL.Sem Idealize.ShloMosaic.ValueIdx
open Idealize.ShloMosaic.Pipeline (Dat)

/-- The offsets (0, 0), however spelt, are the zero offsets. -/
theorem zeroOffsets1 : (![0, 0] : Fin 2 → Nat) = fun _ => 0 := funext fun a => by fin_cases a <;> rfl

/-- One entry of a block's result: entry (p, q) is the block's entry (p, q) plus the bias's entry (0, q),
    cut off below at zero.  The two reshapes are to the same shape and change nothing; the one-row bias laid
    down the 5000 rows reads its only row. -/
theorem blockEntry1 (b : Vec Ideal S1x128 .f32) (x : Vec Ideal S5000x128 .f32) (p : Fin 5000) (q : Fin 128) :
    k1_pay1 b x (ix2 p q) = max (x (ix2 p q) + b (ix2 (0 : Fin 1) q)) (Ideal.ofBits .f32 0x00000000#32) := by
  unfold k1_pay1
  simp only [shapeCast_self]
  show max (x (ix2 p q) + broadcastTo S5000x128 b broadcasts_S1x128_S5000x128 (ix2 p q)) (Ideal.ofBits .f32 0x00000000#32) = _
  rw [broadcastTo_1b_ab_apply]

/-- The whole block's result as a function of the block index. -/
theorem blockFn1 (b : Vec Ideal S1x128 .f32) (x : Vec Ideal S5000x128 .f32) :
    k1_pay1 b x = fun j : S5000x128.Idx => max (x j + b (ix2 (0 : Fin 1) (j 1))) (Ideal.ofBits .f32 0x00000000#32) := by
  funext j
  obtain ⟨p, q, rfl⟩ : ∃ (p : Fin 5000) (q : Fin 128), j = ix2 p q := ⟨j 0, j 1, eq_ix2 j⟩
  exact blockEntry1 b x p q

/-- Where each window's block sits at grid point t, decided over the twenty points: the activations' block
    and the result's block are row block t (all columns); the bias's block is the whole bias. -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Two entries of the whole-array function agree once their activation indices agree and their bias indices agree. -/
theorem entryAgree1 (a : S100000x128.Idx → EReal) (b : S1x128.Idx → EReal) (i i' : S100000x128.Idx) (k k' : S1x128.Idx)
    (hi : i = i') (hk : k = k') :
    max (a i + b k) (Ideal.ofBits .f32 0x00000000#32) = max (a i' + b k') (Ideal.ofBits .f32 0x00000000#32) := by
  rw [hi, hk]

variable (V : (c : Dev nD) → (b : Ref sig .tc) → Buf (Elt Ideal) ((c : Thread nD τ).loc b)) (c : Dev nD)

/-- What grid point t writes back is block t of the whole-array function: an entry of the result's block sits
    in the array at row 5000·t + p, column q, which is where the activations' block entry sits, and the bias
    entry it meets is (0, q). -/
theorem flushedBlock1 (t : Fin cfg1.N) :
    (dat1 (F := Ideal) V c).flushed 2 t
      = ((cfg1.win 2).blk t).view.read (Elt Ideal) (Cert.Gcn.biasRelu (V c main_v44) (V c main_v45)) := by
  show (cfg1.win 2).cut (grid1.coords t) ((dat1 (F := Ideal) V c).after 2 t) = _
  rw [after1_2]
  unfold out1_2
  rw [View.canon_unit_zero zeroOffsets1]
  simp only [View.ld_unit_zero (S := S5000x128) zeroOffsets1, View.ld_unit_zero (S := S1x128) zeroOffsets1]
  rw [blockFn1]
  obtain ⟨e0, e1, e2, e3, e4, e5⟩ := blockIndex1 t
  funext j
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb (ix2 (0 : Fin 1) (j 1)) = ix2 (0 : Fin 1) ((((cfg1.win 2).blk t).view.emb j) 1) := by
    funext a; apply Fin.ext
    match a with
    | ⟨0, _⟩ => show win1_1.index t (0 : Fin 2) * 1 + 1 * 0 = 0; omega
    | ⟨1, _⟩ => show win1_1.index t (1 : Fin 2) * 128 + 1 * (j 1).val = win1_2.index t (1 : Fin 2) * 128 + 1 * (j 1).val; omega
  exact entryAgree1 (V c main_v44) (V c main_v45) _ _ _ _ h0 h1

/-- An array index is in point t's block exactly when each coordinate is in the block's range on its axis. -/
theorem memBlock1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v46).slice (win1_2.rect t)).set ↔ _
  rw [View.set_slice_whole, Rect.mem_set_unit]
  exact Iff.rfl

/-- Every index of the result is in some point's block: row r belongs to block r / 5000. -/
theorem covered1 (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : grid1.N = 20 := N_1
  let t : Fin cfg1.N := ⟨(i 0).val / 5000, by show (i 0).val / 5000 < grid1.N; omega⟩
  have ht : t.val = (i 0).val / 5000 := rfl
  obtain ⟨e0, e1, e2, e3, e4, e5⟩ := blockIndex1 t
  refine ⟨t, flush1_2 t, ?_⟩
  rw [memBlock1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The result array after the twenty points: the bias laid along every row of the activations, added, then relu. -/
theorem biasRelu1 : (dat1 (F := Ideal) V c).arrAt 2 cfg1.N = Cert.Gcn.biasRelu (V c main_v44) (V c main_v45) :=
  (dat1 (F := Ideal) V c).arrAt_eq_of_cover 2 (Cert.Gcn.biasRelu (V c main_v44) (V c main_v45))
    (fun t _ => flushedBlock1 V c t) (covered1)

end Cert.Gcn.Kernel

end
-- ==== Proof.BiasRelu3.lean ====
/-
  The bias-and-relu stage of layer two, read off the tiled kernel as one function of whole arrays.

  The kernel walks twenty row blocks.  At block t it holds rows 5000·t … 5000·t + 4999 of the aggregated
  activations (all 128 columns) together with the whole one-row bias, and stores, entry by entry,
  max (a[r, j] + b[0, j]) 0 into the same rows of the result.  Entry (r, j) of the result therefore depends
  only on a[r, j] and b[0, j]; the block that owns row r is block r / 5000, and the twenty blocks tile all
  100000 rows, so the result array is the whole-array function biasRelu a b.
-/
import proofs.«153782_j69389491634483_1_alg».proof.Proof.Gen.KernelIdeal.Frame
import proofs.«153782_j69389491634483_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Kernel

open Cert.KernelIdeal Cert.KernelIdeal.Gen Idealize.ShloMosaic Idealize.ShloMosaic.TcCoe Idealize.SL.Sem Idealize.ShloMosaic.ValueIdx
open Idealize.ShloMosaic.Pipeline (Dat)

/-- The offsets (0, 0), however spelt, are the zero offsets. -/
theorem zeroOffsets3 : (![0, 0] : Fin 2 → Nat) = fun _ => 0 := funext fun a => by fin_cases a <;> rfl

/-- One entry of a block's result: entry (p, q) is the block's entry (p, q) plus the bias's entry (0, q),
    cut off below at zero.  The two reshapes are to the same shape and change nothing; the one-row bias laid
    down the 5000 rows reads its only row. -/
theorem blockEntry3 (b : Vec Ideal S1x128 .f32) (x : Vec Ideal S5000x128 .f32) (p : Fin 5000) (q : Fin 128) :
    k3_pay1 b x (ix2 p q) = max (x (ix2 p q) + b (ix2 (0 : Fin 1) q)) (Ideal.ofBits .f32 0x00000000#32) := by
  unfold k3_pay1
  simp only [shapeCast_self]
  show max (x (ix2 p q) + broadcastTo S5000x128 b broadcasts_S1x128_S5000x128 (ix2 p q)) (Ideal.ofBits .f32 0x00000000#32) = _
  rw [broadcastTo_1b_ab_apply]

/-- The whole block's result as a function of the block index. -/
theorem blockFn3 (b : Vec Ideal S1x128 .f32) (x : Vec Ideal S5000x128 .f32) :
    k3_pay1 b x = fun j : S5000x128.Idx => max (x j + b (ix2 (0 : Fin 1) (j 1))) (Ideal.ofBits .f32 0x00000000#32) := by
  funext j
  obtain ⟨p, q, rfl⟩ : ∃ (p : Fin 5000) (q : Fin 128), j = ix2 p q := ⟨j 0, j 1, eq_ix2 j⟩
  exact blockEntry3 b x p q

/-- Where each window's block sits at grid point t, decided over the twenty points: the activations' block
    and the result's block are row block t (all columns); the bias's block is the whole bias. -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Two entries of the whole-array function agree once their activation indices agree and their bias indices agree. -/
theorem entryAgree3 (a : S100000x128.Idx → EReal) (b : S1x128.Idx → EReal) (i i' : S100000x128.Idx) (k k' : S1x128.Idx)
    (hi : i = i') (hk : k = k') :
    max (a i + b k) (Ideal.ofBits .f32 0x00000000#32) = max (a i' + b k') (Ideal.ofBits .f32 0x00000000#32) := by
  rw [hi, hk]

variable (V : (c : Dev nD) → (b : Ref sig .tc) → Buf (Elt Ideal) ((c : Thread nD τ).loc b)) (c : Dev nD)

/-- What grid point t writes back is block t of the whole-array function: an entry of the result's block sits
    in the array at row 5000·t + p, column q, which is where the activations' block entry sits, and the bias
    entry it meets is (0, q). -/
theorem flushedBlock3 (t : Fin cfg3.N) :
    (dat3 (F := Ideal) V c).flushed 2 t
      = ((cfg3.win 2).blk t).view.read (Elt Ideal) (Cert.Gcn.biasRelu (V c main_v60) (V c main_v61)) := by
  show (cfg3.win 2).cut (grid3.coords t) ((dat3 (F := Ideal) V c).after 2 t) = _
  rw [after3_2]
  unfold out3_2
  rw [View.canon_unit_zero zeroOffsets3]
  simp only [View.ld_unit_zero (S := S5000x128) zeroOffsets3, View.ld_unit_zero (S := S1x128) zeroOffsets3]
  rw [blockFn3]
  obtain ⟨e0, e1, e2, e3, e4, e5⟩ := blockIndex3 t
  funext j
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 128 + 1 * (j 1).val = win3_2.index t (1 : Fin 2) * 128 + 1 * (j 1).val; omega
  have h1 : ((cfg3.win 1).blk t).view.emb (ix2 (0 : Fin 1) (j 1)) = ix2 (0 : Fin 1) ((((cfg3.win 2).blk t).view.emb j) 1) := by
    funext a; apply Fin.ext
    match a with
    | ⟨0, _⟩ => show win3_1.index t (0 : Fin 2) * 1 + 1 * 0 = 0; omega
    | ⟨1, _⟩ => show win3_1.index t (1 : Fin 2) * 128 + 1 * (j 1).val = win3_2.index t (1 : Fin 2) * 128 + 1 * (j 1).val; omega
  exact entryAgree3 (V c main_v60) (V c main_v61) _ _ _ _ h0 h1

/-- An array index is in point t's block exactly when each coordinate is in the block's range on its axis. -/
theorem memBlock3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v62).slice (win3_2.rect t)).set ↔ _
  rw [View.set_slice_whole, Rect.mem_set_unit]
  exact Iff.rfl

/-- Every index of the result is in some point's block: row r belongs to block r / 5000. -/
theorem covered3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : grid3.N = 20 := N_3
  let t : Fin cfg3.N := ⟨(i 0).val / 5000, by show (i 0).val / 5000 < grid3.N; omega⟩
  have ht : t.val = (i 0).val / 5000 := rfl
  obtain ⟨e0, e1, e2, e3, e4, e5⟩ := blockIndex3 t
  refine ⟨t, flush3_2 t, ?_⟩
  rw [memBlock3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- The result array after the twenty points: the bias laid along every row of the activations, added, then relu. -/
theorem biasRelu3 : (dat3 (F := Ideal) V c).arrAt 2 cfg3.N = Cert.Gcn.biasRelu (V c main_v60) (V c main_v61) :=
  (dat3 (F := Ideal) V c).arrAt_eq_of_cover 2 (Cert.Gcn.biasRelu (V c main_v60) (V c main_v61))
    (fun t _ => flushedBlock3 V c t) (covered3)

end Cert.Gcn.Kernel

end
-- ==== Proof.LogSoftmax5.lean ====
/-
  The last dense stage of the network, read off the sixth pipelined region of the kernel program: the result
  array of the bias + log-softmax kernel is the specification's `logSoftmaxBias` of the region's two input arrays.

  The grid has 20 points.  Point t's block of the [100000, 64] logits array is rows 5000·t … 5000·t + 4999 with all
  64 columns; the one-row bias is whole at every point; the output's block is the same rows of the result array.
  Inside a block, entry (p, q) depends on row p of the block alone: with h[k] = blk[p, k] + bias[0, k] and M the
  maximum of h over the 64 classes (a fold of max from -∞), it is (h[q] - M) - log (∑ k, exp (h[k] - M)).
  Row p of block t is row 5000·t + p of the array, so each block written back is the restriction of ONE function of
  the whole arrays, and the 20 blocks cover the result array.
-/
import proofs.«153782_j69389491634483_1_alg».proof.Proof.Gen.KernelIdeal.Frame
import proofs.«153782_j69389491634483_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gcn.Kernel

open Cert.KernelIdeal Cert.KernelIdeal.Gen Idealize.ShloMosaic Idealize.ShloMosaic.TcCoe Idealize.SL.Sem Idealize.ShloMosaic.ValueIdx

namespace Lsm5

/-! ## A column of row statistics laid back along the rows -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row statistic kept as a one-column matrix and broadcast along the 64 classes reads, at `(p, q)`, the
    statistic of row `p`. -/
theorem keepdims_apply (v : FVec Ideal S5000 .f32) (p : Fin 5000) (q : Fin 64) :
    broadcastTo S5000x64 (shapeCast S5000x1 v shapeCasts_S5000_S5000x1) broadcasts_S5000x1_S5000x64 (ix2 p q) = v (ix1 p) :=
  (broadcastTo_a1_ab_apply _ broadcasts_S5000x1_S5000x64 p q).trans (shapeCast_a_a1_apply v shapeCasts_S5000_S5000x1 p 0)

/-- The same with the logarithm taken on the column before it is broadcast. -/
theorem keepdims_log_apply (v : FVec Ideal S5000 .f32) (p : Fin 5000) (q : Fin 64) :
    broadcastTo S5000x64 (log (shapeCast S5000x1 v shapeCasts_S5000_S5000x1)) broadcasts_S5000x1_S5000x64 (ix2 p q)
      = Ideal.log (v (ix1 p)) :=
  (broadcastTo_a1_ab_apply _ broadcasts_S5000x1_S5000x64 p q).trans
    (congrArg Ideal.log (shapeCast_a_a1_apply v shapeCasts_S5000_S5000x1 p 0))

/-- The index a reduction along the classes inserts: row `p` with class `k` put back is `(p, k)`. -/
theorem lift_row (h : S5000x64.Reduces [1] S5000) (p : Fin 5000) (k : Fin 64) : h.lift (ix1 p) k = ix2 p k := by
  funext a
  apply Fin.ext
  match a with
  | ⟨0, _⟩ => rfl
  | ⟨1, _⟩ => rfl

/-! ## The three stages of the body, each read at an entry -/

/-- One row's log-softmax in its shifted form, at class `q`: with M the row's maximum,
    (h q - M) - log (∑ k, exp (h k - M)). -/
def rowLsm (h : Fin 64 → EReal) (q : Fin 64) : EReal :=
  (h q - Cert.Gcn.rowMax h) - Ideal.log (∑ k : Fin 64, Ideal.exp (h k - Cert.Gcn.rowMax h))

/-- The specification's function is that, row by row, of the biased logits. -/
theorem logSoftmaxBias_apply (a : Cert.Gcn.Mat 100000 64) (b : Cert.Gcn.Mat 1 64) (i : (⟨2, ![100000, 64]⟩ : Shape).Idx) :
    Cert.Gcn.logSoftmaxBias a b i = rowLsm (Cert.Gcn.logitRow a b (i 0)) (i 1) := rfl

/-- The maximum over the classes, from -∞, of row `p` of a block. -/
theorem rowMax_apply (v : FVec Ideal S5000x64 .f32) (p : Fin 5000) :
    multiReduction (F := Ideal) .maximumf [1] S5000 v 0xFF800000#32 reduces_S5000x64_S5000 (.inl rfl) rfl (ix1 p)
      = Cert.Gcn.rowMax (fun k => v (ix2 p k)) := by
  refine (Ideal.multiReduction_maximumf_single v 0xFF800000#32 reduces_S5000x64_S5000 (.inl rfl) rfl (ix1 p)).trans ?_
  show (Finset.univ : Finset (Fin 64)).fold max (Ideal.ofBits .f32 0xFF800000#32)
      (fun k => v (reduces_S5000x64_S5000.lift (ix1 p) k)) = _
  unfold Cert.Gcn.rowMax
  exact congrArg (fun f : Fin 64 → EReal => (Finset.univ : Finset (Fin 64)).fold max (Ideal.ofBits .f32 0xFF800000#32) f)
    (funext fun k => congrArg v (lift_row reduces_S5000x64_S5000 p k))

/-- The sum over the classes of row `p` of a block. -/
theorem rowSum_apply (v : FVec Ideal S5000x64 .f32) (p : Fin 5000) :
    multiReduction (F := Ideal) .add [1] S5000 v 0x00000000#32 reduces_S5000x64_S5000 (.inl rfl) rfl (ix1 p)
      = ∑ k : Fin 64, v (ix2 p k) := by
  refine (Ideal.multiReduction_add_single v 0x00000000#32 reduces_S5000x64_S5000 (.inl rfl) rfl (ix1 p)).trans ?_
  show ∑ k : Fin 64, v (reduces_S5000x64_S5000.lift (ix1 p) k) = _
  exact Finset.sum_congr rfl fun k _ => congrArg v (lift_row reduces_S5000x64_S5000 p k)

/-- Stage 1: the one-row bias laid along every row of the block and added. -/
def logits (x1 : Vec Ideal S1x64 .f32) (x0 : Vec Ideal S5000x64 .f32) : FVec Ideal S5000x64 .f32 :=
  addf (shapeCast S5000x64 x0 shapeCasts_S5000x64_S5000x64)
    (broadcastTo S5000x64 (shapeCast S1x64 (shapeCast S1x64 x1 shapeCasts_S1x64_S1x64) shapeCasts_S1x64_S1x64) broadcasts_S1x64_S5000x64)

/-- Stage 2: each row's maximum subtracted from the row. -/
def shifted (v : FVec Ideal S5000x64 .f32) : FVec Ideal S5000x64 .f32 :=
  subf v (broadcastTo S5000x64 (shapeCast S5000x1
    (multiReduction .maximumf [1] S5000 v 0xFF800000#32 reduces_S5000x64_S5000 (.inl rfl) rfl) shapeCasts_S5000_S5000x1) broadcasts_S5000x1_S5000x64)

/-- Stage 3: the logarithm of each row's sum of exponentials subtracted from the row. -/
def normalized (z : FVec Ideal S5000x64 .f32) : FVec Ideal S5000x64 .f32 :=
  subf z (broadcastTo S5000x64 (log (shapeCast S5000x1
    (multiReduction .add [1] S5000 (exp z) 0x00000000#32 reduces_S5000x64_S5000 (.inl rfl) rfl) shapeCasts_S5000_S5000x1)) broadcasts_S5000x1_S5000x64)

/-- The body's stored value is the three stages composed (the printed operations, regrouped). -/
theorem pay_eq (x1 : Vec Ideal S1x64 .f32) (x0 : Vec Ideal S5000x64 .f32) :
    k5_pay1 (F := Ideal) x1 x0 = normalized (shifted (logits x1 x0)) := rfl

theorem logits_apply (x1 : Vec Ideal S1x64 .f32) (x0 : Vec Ideal S5000x64 .f32) (p : Fin 5000) (k : Fin 64) :
    logits x1 x0 (ix2 p k) = (x0 (ix2 p k) : EReal) + (x1 (ix2 (0 : Fin 1) k) : EReal) := by
  unfold logits
  rw [shapeCast_self, shapeCast_self, shapeCast_self]
  show (x0 (ix2 p k) : EReal) + broadcastTo S5000x64 x1 broadcasts_S1x64_S5000x64 (ix2 p k) = _
  rw [broadcastTo_1b_ab_apply x1 broadcasts_S1x64_S5000x64 p k]

theorem shifted_apply (v : FVec Ideal S5000x64 .f32) (p : Fin 5000) (q : Fin 64) :
    shifted v (ix2 p q) = v (ix2 p q) - Cert.Gcn.rowMax (fun k => v (ix2 p k)) := by
  show v (ix2 p q) - broadcastTo S5000x64 (shapeCast S5000x1
    (multiReduction (F := Ideal) .maximumf [1] S5000 v 0xFF800000#32 reduces_S5000x64_S5000 (.inl rfl) rfl) shapeCasts_S5000_S5000x1) broadcasts_S5000x1_S5000x64 (ix2 p q) = _
  exact congrArg (fun y : EReal => v (ix2 p q) - y) ((keepdims_apply _ p q).trans (rowMax_apply v p))

theorem normalized_apply (z : FVec Ideal S5000x64 .f32) (p : Fin 5000) (q : Fin 64) :
    normalized z (ix2 p q) = z (ix2 p q) - Ideal.log (∑ k : Fin 64, Ideal.exp (z (ix2 p k))) := by
  show z (ix2 p q) - broadcastTo S5000x64 (log (shapeCast S5000x1
    (multiReduction (F := Ideal) .add [1] S5000 (exp z) 0x00000000#32 reduces_S5000x64_S5000 (.inl rfl) rfl) shapeCasts_S5000_S5000x1)) broadcasts_S5000x1_S5000x64 (ix2 p q) = _
  exact congrArg (fun y : EReal => z (ix2 p q) - y)
    ((keepdims_log_apply _ p q).trans (congrArg Ideal.log (rowSum_apply (exp z) p)))

/-- Row `p` of a block with the bias added: class `k` ↦ blk[p, k] + bias[0, k]. -/
def blockRow (x1 : Vec Ideal S1x64 .f32) (x0 : Vec Ideal S5000x64 .f32) (p : Fin 5000) : Fin 64 → EReal :=
  fun k => (x0 (ix2 p k) : EReal) + (x1 (ix2 (0 : Fin 1) k) : EReal)

/-- THE BODY'S STORED VALUE AT AN ENTRY: entry (p, q) is the shifted log-softmax of row p of the biased block, at class q. -/
theorem pay_apply (x1 : Vec Ideal S1x64 .f32) (x0 : Vec Ideal S5000x64 .f32) (p : Fin 5000) (q : Fin 64) :
    k5_pay1 (F := Ideal) x1 x0 (ix2 p q) = rowLsm (blockRow x1 x0 p) q := by
  rw [pay_eq, normalized_apply, shifted_apply]
  have hrow : (fun k => logits x1 x0 (ix2 p k)) = blockRow x1 x0 p := funext fun k => logits_apply x1 x0 p k
  have hexp : ∀ k : Fin 64, shifted (logits x1 x0) (ix2 p k) = blockRow x1 x0 p k - Cert.Gcn.rowMax (blockRow x1 x0 p) := by
    intro k
    rw [shifted_apply, hrow, logits_apply]
    rfl
  simp only [hexp]
  rw [hrow, logits_apply]
  rfl

end Lsm5

variable (V : (c : Dev nD) → (b : Ref sig .tc) → Buf (Elt Ideal) ((c : Thread nD τ).loc b)) (c : Dev nD)

namespace Lsm5

/-! ## From the 20 blocks to the array -/

theorem zeroOff : (![0, 0] : Fin 2 → Nat) = fun _ => 0 := funext fun a => by fin_cases a <;> rfl

/-- The body's stored value at an entry of the block given as an index. -/
theorem pay_apply_idx (x1 : Vec Ideal S1x64 .f32) (x0 : Vec Ideal S5000x64 .f32) (j : S5000x64.Idx) :
    k5_pay1 (F := Ideal) x1 x0 j = rowLsm (blockRow x1 x0 (j 0)) (j 1) :=
  (congrArg (k5_pay1 (F := Ideal) x1 x0) (eq_ix2 j)).trans (pay_apply x1 x0 (j 0) (j 1))

/-- The index maps over the 20 grid points: the logits' and the result's block at point t is block row t, block
    column 0; the bias's block is the whole one-row array at every point. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Row p of the logits' block at point t is row 5000·t + p of the logits array. -/
theorem blk0_apply (t : Fin cfg5.N) (p : Fin 5000) (k : Fin 64) (r : Fin 100000) (hr : r.val = 5000 * t.val + p.val) :
    ((iblk5 (F := Ideal) V c 0 t : Vec Ideal S5000x64 .f32) (ix2 p k) : EReal)
      = (V c main_v76 : S100000x64.Idx → EReal) (ix2 r k) := by
  obtain ⟨e0, e1, -⟩ := idx_facts t
  have h : ((cfg5.win 0).blk t).view.emb (ix2 p k : S5000x64.Idx) = (ix2 r k : S100000x64.Idx) := by
    funext a; apply Fin.ext
    match a with
    | ⟨0, _⟩ => show win5_0.index t (0 : Fin 2) * 5000 + 1 * p.val = r.val; rw [e0, hr]; omega
    | ⟨1, _⟩ => show win5_0.index t (1 : Fin 2) * 64 + 1 * k.val = k.val; rw [e1]; omega
  show (V c main_v76 : S100000x64.Idx → EReal) (((cfg5.win 0).blk t).view.emb (ix2 p k : S5000x64.Idx)) = _
  rw [h]

/-- The bias's block at every point is the one-row bias array. -/
theorem blk1_apply (t : Fin cfg5.N) (k : Fin 64) :
    ((iblk5 (F := Ideal) V c 1 t : Vec Ideal S1x64 .f32) (ix2 (0 : Fin 1) k) : EReal)
      = (V c main_v77 : S1x64.Idx → EReal) (ix2 (0 : Fin 1) k) := by
  obtain ⟨-, -, e2, e3, -⟩ := idx_facts t
  have h : ((cfg5.win 1).blk t).view.emb (ix2 (0 : Fin 1) k : S1x64.Idx) = (ix2 (0 : Fin 1) k : S1x64.Idx) := by
    funext a; apply Fin.ext
    match a with
    | ⟨0, _⟩ => show win5_1.index t (0 : Fin 2) * 1 + 1 * 0 = 0; rw [e2]
    | ⟨1, _⟩ => show win5_1.index t (1 : Fin 2) * 64 + 1 * k.val = k.val; rw [e3]; omega
  show (V c main_v77 : S1x64.Idx → EReal) (((cfg5.win 1).blk t).view.emb (ix2 (0 : Fin 1) k : S1x64.Idx)) = _
  rw [h]

/-- Entry (p, q) of what point t computes is the specification's function at row 5000·t + p, class q. -/
theorem entry_eq (t : Fin cfg5.N) (p : Fin 5000) (q : Fin 64) (r : Fin 100000) (hr : r.val = 5000 * t.val + p.val) :
    rowLsm (blockRow (iblk5 (F := Ideal) V c 1 t) (iblk5 (F := Ideal) V c 0 t) p) q
      = Cert.Gcn.logSoftmaxBias (V c main_v76) (V c main_v77) (ix2 r q) := by
  show _ = rowLsm (Cert.Gcn.logitRow (V c main_v76) (V c main_v77) r) q
  refine congrArg (fun h : Fin 64 → EReal => rowLsm h q) (funext fun k => ?_)
  exact congrArg₂ (fun a b : EReal => a + b) (blk0_apply V c t p k r hr) (blk1_apply V c t k)

/-- WHAT POINT t WRITES BACK is block t of the specification's function of the two input arrays. -/
theorem flushed_eq (t : Fin cfg5.N) :
    (dat5 (F := Ideal) V c).flushed 2 t
      = ((cfg5.win 2).blk t).view.read (Elt Ideal) (Cert.Gcn.logSoftmaxBias (V c main_v76) (V c main_v77)) := by
  show (cfg5.win 2).cut (grid5.coords t) ((dat5 (F := Ideal) V c).after 2 t) = _
  rw [after5_2 V c t]
  unfold out5_2
  rw [View.canon_unit_zero zeroOff]
  simp only [View.ld_unit_zero (S := S5000x64) zeroOff, View.ld_unit_zero (S := S1x64) zeroOff]
  obtain ⟨-, -, -, -, e4, e5⟩ := idx_facts t
  funext j
  have hj0 : (j 0).val < 5000 := (j 0).isLt
  have hj1 : (j 1).val < 64 := (j 1).isLt
  have ht : t.val < 20 := t.isLt
  have hemb : ((cfg5.win 2).blk t).view.emb j
      = (ix2 (⟨5000 * t.val + (j 0).val, by omega⟩ : Fin 100000) (⟨(j 1).val, hj1⟩ : Fin 64) : S100000x64.Idx) := by
    funext a; apply Fin.ext
    match a with
    | ⟨0, _⟩ => show win5_2.index t (0 : Fin 2) * 5000 + 1 * (j 0).val = 5000 * t.val + (j 0).val; rw [e4]; omega
    | ⟨1, _⟩ => show win5_2.index t (1 : Fin 2) * 64 + 1 * (j 1).val = (j 1).val; rw [e5]; omega
  show k5_pay1 (F := Ideal) (iblk5 (F := Ideal) V c 1 t) (iblk5 (F := Ideal) V c 0 t) j
      = Cert.Gcn.logSoftmaxBias (V c main_v76) (V c main_v77) (((cfg5.win 2).blk t).view.emb j)
  rw [hemb]
  exact (pay_apply_idx (iblk5 (F := Ideal) V c 1 t) (iblk5 (F := Ideal) V c 0 t) j).trans
    (entry_eq V c t ⟨(j 0).val, hj0⟩ ⟨(j 1).val, hj1⟩ ⟨5000 * t.val + (j 0).val, by omega⟩ rfl)

/-- An index of the result array is in point t's block iff each coordinate is in the block's range on its axis. -/
theorem mem_blk (t : Fin cfg5.N) (i : S100000x64.Idx) :
    i ∈ ((cfg5.win 2).blk t).view.set ↔ ∀ a : Fin 2, win5_2.index t a * S5000x64.size a ≤ (i a).val
      ∧ (i a).val < win5_2.index t a * S5000x64.size a + S5000x64.size a := by
  show i ∈ ((View.whole main_v78).slice (win5_2.rect t)).set ↔ _
  rw [View.set_slice_whole, Rect.mem_set_unit]
  exact Iff.rfl

/-- Every entry of the result array is in the block of the point its row's quotient by 5000 names. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hlt : (i 0).val / 5000 < 20 := by omega
  obtain ⟨-, -, -, -, e4, e5⟩ := idx_facts ⟨(i 0).val / 5000, hlt⟩
  have e4' : win5_2.index ⟨(i 0).val / 5000, hlt⟩ (0 : Fin 2) = (i 0).val / 5000 := e4
  refine ⟨⟨(i 0).val / 5000, hlt⟩, flush5_2 _, ?_⟩
  rw [mem_blk]
  intro a
  match a with
  | ⟨0, _⟩ =>
    show win5_2.index ⟨(i 0).val / 5000, hlt⟩ (0 : Fin 2) * 5000 ≤ (i 0).val
      ∧ (i 0).val < win5_2.index ⟨(i 0).val / 5000, hlt⟩ (0 : Fin 2) * 5000 + 5000
    rw [e4']; omega
  | ⟨1, _⟩ =>
    show win5_2.index ⟨(i 0).val / 5000, hlt⟩ (1 : Fin 2) * 64 ≤ (i 1).val
      ∧ (i 1).val < win5_2.index ⟨(i 0).val / 5000, hlt⟩ (1 : Fin 2) * 64 + 64
    rw [e5]; omega

end Lsm5

/-- THE RESULT ARRAY after the last region: the bias added to the logits, then the row-wise log-softmax. -/
theorem logSoftmax5 : (dat5 (F := Ideal) V c).arrAt 2 cfg5.N = Cert.Gcn.logSoftmaxBias (V c main_v76) (V c main_v77) :=
  (dat5 (F := Ideal) V c).arrAt_eq_of_cover 2 (Cert.Gcn.logSoftmaxBias (V c main_v76) (V c main_v77))
    (fun t _ => Lsm5.flushed_eq V c t) Lsm5.cover

end Cert.Gcn.Kernel

end
-- ==== Proof.RefRun.lean ====
/-
  The reference program's run.

  The reference is a straight line of 122 host operations (its three called functions inlined at their calls): the edge
  normalisation (41 operations), then per layer a dense product, the gather / weight / scatter-add aggregation, the bias,
  and relu (23 operations; layers 1 and 2) or, in layer 3, the bias (20 operations) and then the log-softmax (15 operations).  Every weakly fair execution from a
  memory with zero counters terminates, and every buffer ends at the fold of the operations' results over the launch
  contents; read here at the result and at the eight arguments, which no operation writes.
-/
import proofs.«153782_j69389491634483_1_alg».proof.Proof.Gen.ReferenceIdeal
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo

variable {F : FTy → Type} [FloatOps F]

/-- The edge normalisation: sources, destinations, degrees, and the weight of every edge. -/
abbrev opsNorm : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v7 main_v22 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]

/-- Layer 1: the product with the first weight, the aggregation, the bias, relu. -/
abbrev opsLayer1 : List (HloOp τ sig (Elt F)) :=
  [ binary main_arg0 main_arg2 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v40 main_v41 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v47) (TRef.of (T := ⟨S100000x128, .f32⟩) main_call1_v0) (TRef.of (T := ⟨S100000x128, .f32⟩) main_v48) maximumf ]

/-- Layer 2. -/
abbrev opsLayer2 : List (HloOp τ sig (Elt F)) :=
  [ binary main_v48 main_arg4 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v49 main_v55 main_v56 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v57 (broadcastInDim S1700000x1 ![0] bcast_S1700000_S1700000x1_0 : (⟨S1700000, .f32⟩ : BufTy).Contents (Elt F) → (⟨S1700000x1, .f32⟩ : BufTy).Contents (Elt F)),
    unary main_v57 main_v58 (broadcastInDim S1700000x128 ![0, 1] bcast_S1700000x1_S1700000x128_0_1 : (⟨S1700000x1, .f32⟩ : BufTy).Contents (Elt F) → (⟨S1700000x128, .f32⟩ : BufTy).Contents (Elt F)),
    binary main_v56 main_v58 main_v59 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v60 (broadcastInDim S100000x128 ![] bcast_S_S100000x128 : (⟨S_, .f32⟩ : BufTy).Contents (Elt F) → (⟨S100000x128, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v65) (TRef.of (T := ⟨S100000x128, .f32⟩) main_call2_v0) (TRef.of (T := ⟨S100000x128, .f32⟩) main_v66) maximumf ]

/-- Layer 3 up to the biased logits: the product, the aggregation, the bias. -/
abbrev opsLayer3 : List (HloOp τ sig (Elt F)) :=
  [ binary main_v66 main_arg6 main_v67 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v68 (broadcastInDim S1700000 ![] bcast_S_S1700000 : (⟨S_, .i32⟩ : BufTy).Contents (Elt F) → (⟨S1700000, .i32⟩ : BufTy).Contents (Elt F)),
    binary main_v3 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v70 (broadcastInDim S1700000 ![] bcast_S_S1700000 : (⟨S_, .i32⟩ : BufTy).Contents (Elt F) → (⟨S1700000, .i32⟩ : BufTy).Contents (Elt F)),
    binary main_v3 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v67 main_v73 main_v74 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v75 (broadcastInDim S1700000x1 ![0] bcast_S1700000_S1700000x1_0 : (⟨S1700000, .f32⟩ : BufTy).Contents (Elt F) → (⟨S1700000x1, .f32⟩ : BufTy).Contents (Elt F)),
    unary main_v75 main_v76 (broadcastInDim S1700000x64 ![0, 1] bcast_S1700000x1_S1700000x64_0_1 : (⟨S1700000x1, .f32⟩ : BufTy).Contents (Elt F) → (⟨S1700000x64, .f32⟩ : BufTy).Contents (Elt F)),
    binary main_v74 main_v76 main_v77 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v78 (broadcastInDim S100000x64 ![] bcast_S_S100000x64 : (⟨S_, .f32⟩ : BufTy).Contents (Elt F) → (⟨S100000x64, .f32⟩ : BufTy).Contents (Elt F)),
    unary main_v6 main_v79 (broadcastInDim S1700000x1 ![0] bcast_S1700000_S1700000x1_0 : (⟨S1700000, .i32⟩ : BufTy).Contents (Elt F) → (⟨S1700000x1, .i32⟩ : BufTy).Contents (Elt F)),
    ternary main_v78 main_v79 main_v77 main_v80 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v81 (broadcastInDim S1x64 ![1] bcast_S64_S1x64_1 : (⟨S64, .f32⟩ : BufTy).Contents (Elt F) → (⟨S1x64, .f32⟩ : BufTy).Contents (Elt F)),
    unary main_v81 main_v82 (broadcastInDim S100000x64 ![0, 1] bcast_S1x64_S100000x64_0_1 : (⟨S1x64, .f32⟩ : BufTy).Contents (Elt F) → (⟨S100000x64, .f32⟩ : BufTy).Contents (Elt F)),
    binary main_v80 main_v82 main_v83 (addf : (⟨S100000x64, .f32⟩ : BufTy).Contents (Elt F) → (⟨S100000x64, .f32⟩ : BufTy).Contents (Elt F) → (⟨S100000x64, .f32⟩ : BufTy).Contents (Elt F)) ]

/-- The row-wise log-softmax of the logits. -/
abbrev opsSoftmax : List (HloOp τ sig (Elt F)) :=
  [ TRef.nullary (TRef.of (T := ⟨S_, .f32⟩) main_call3_cst) (constant S_ .f32 0xFF800000#32),
    TRef.binary (TRef.of (T := ⟨S100000x64, .f32⟩) main_v83) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v83) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v84) subf ]

/-- The program's 122 operations, in order. -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v7 main_v22 (mulf : (⟨S1700000, .f32⟩ : BufTy).Contents (Elt F) → (⟨S1700000, .f32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v14 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)),
    binary main_arg0 main_arg2 main_v31 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v3 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v3 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v3 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v40 main_v41 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v47) (TRef.of (T := ⟨S100000x128, .f32⟩) main_call1_v0) (TRef.of (T := ⟨S100000x128, .f32⟩) main_v48) maximumf,
    binary main_v48 main_arg4 main_v49 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v50 (broadcastInDim S1700000 ![] bcast_S_S1700000 : (⟨S_, .i32⟩ : BufTy).Contents (Elt F) → (⟨S1700000, .i32⟩ : BufTy).Contents (Elt F)),
    binary main_v3 main_v50 main_v51 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v52 (broadcastInDim S1700000 ![] bcast_S_S1700000 : (⟨S_, .i32⟩ : BufTy).Contents (Elt F) → (⟨S1700000, .i32⟩ : BufTy).Contents (Elt F)),
    binary main_v3 main_v52 main_v53 (addi : (⟨S1700000, .i32⟩ : BufTy).Contents (Elt F) → (⟨S1700000, .i32⟩ : BufTy).Contents (Elt F) → (⟨S1700000, .i32⟩ : BufTy).Contents (Elt F)),
    ternary main_v51 main_v53 main_v3 main_v54 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v54 main_v55 (broadcastInDim S1700000x1 ![0] bcast_S1700000_S1700000x1_0 : (⟨S1700000, .i32⟩ : BufTy).Contents (Elt F) → (⟨S1700000x1, .i32⟩ : BufTy).Contents (Elt F)),
    binary main_v49 main_v55 main_v56 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v57 (broadcastInDim S1700000x1 ![0] bcast_S1700000_S1700000x1_0 : (⟨S1700000, .f32⟩ : BufTy).Contents (Elt F) → (⟨S1700000x1, .f32⟩ : BufTy).Contents (Elt F)),
    unary main_v57 main_v58 (broadcastInDim S1700000x128 ![0, 1] bcast_S1700000x1_S1700000x128_0_1 : (⟨S1700000x1, .f32⟩ : BufTy).Contents (Elt F) → (⟨S1700000x128, .f32⟩ : BufTy).Contents (Elt F)),
    binary main_v56 main_v58 main_v59 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v60 (broadcastInDim S100000x128 ![] bcast_S_S100000x128 : (⟨S_, .f32⟩ : BufTy).Contents (Elt F) → (⟨S100000x128, .f32⟩ : BufTy).Contents (Elt F)),
    unary main_v6 main_v61 (broadcastInDim S1700000x1 ![0] bcast_S1700000_S1700000x1_0 : (⟨S1700000, .i32⟩ : BufTy).Contents (Elt F) → (⟨S1700000x1, .i32⟩ : BufTy).Contents (Elt F)),
    ternary main_v60 main_v61 main_v59 main_v62 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v62 main_v64 main_v65 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v65) (TRef.of (T := ⟨S100000x128, .f32⟩) main_call2_v0) (TRef.of (T := ⟨S100000x128, .f32⟩) main_v66) maximumf,
    binary main_v66 main_arg6 main_v67 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v68 (broadcastInDim S1700000 ![] bcast_S_S1700000 : (⟨S_, .i32⟩ : BufTy).Contents (Elt F) → (⟨S1700000, .i32⟩ : BufTy).Contents (Elt F)),
    binary main_v3 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v70 (broadcastInDim S1700000 ![] bcast_S_S1700000 : (⟨S_, .i32⟩ : BufTy).Contents (Elt F) → (⟨S1700000, .i32⟩ : BufTy).Contents (Elt F)),
    binary main_v3 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v67 main_v73 main_v74 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v30 main_v75 (broadcastInDim S1700000x1 ![0] bcast_S1700000_S1700000x1_0 : (⟨S1700000, .f32⟩ : BufTy).Contents (Elt F) → (⟨S1700000x1, .f32⟩ : BufTy).Contents (Elt F)),
    unary main_v75 main_v76 (broadcastInDim S1700000x64 ![0, 1] bcast_S1700000x1_S1700000x64_0_1 : (⟨S1700000x1, .f32⟩ : BufTy).Contents (Elt F) → (⟨S1700000x64, .f32⟩ : BufTy).Contents (Elt F)),
    binary main_v74 main_v76 main_v77 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v78 (broadcastInDim S100000x64 ![] bcast_S_S100000x64 : (⟨S_, .f32⟩ : BufTy).Contents (Elt F) → (⟨S100000x64, .f32⟩ : BufTy).Contents (Elt F)),
    unary main_v6 main_v79 (broadcastInDim S1700000x1 ![0] bcast_S1700000_S1700000x1_0 : (⟨S1700000, .i32⟩ : BufTy).Contents (Elt F) → (⟨S1700000x1, .i32⟩ : BufTy).Contents (Elt F)),
    ternary main_v78 main_v79 main_v77 main_v80 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v81 (broadcastInDim S1x64 ![1] bcast_S64_S1x64_1 : (⟨S64, .f32⟩ : BufTy).Contents (Elt F) → (⟨S1x64, .f32⟩ : BufTy).Contents (Elt F)),
    unary main_v81 main_v82 (broadcastInDim S100000x64 ![0, 1] bcast_S1x64_S100000x64_0_1 : (⟨S1x64, .f32⟩ : BufTy).Contents (Elt F) → (⟨S100000x64, .f32⟩ : BufTy).Contents (Elt F)),
    binary main_v80 main_v82 main_v83 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0xFF800000#32),
    TRef.binary (TRef.of (T := ⟨S100000x64, .f32⟩) main_v83) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v83) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v84) subf ]

/-- The line is the five stretches one after the other. -/
theorem ops_split : (ops : List (HloOp τ sig (Elt F))) = opsNorm ++ (opsLayer1 ++ (opsLayer2 ++ (opsLayer3 ++ opsSoftmax))) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Two stretches run one after the other from contents V leave what the second leaves from what the first left. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

set_option maxRecDepth 8192 in
set_option maxHeartbeats 48800000 in
/-- Every weakly fair execution of the reference terminates with the result buffer at the fold of the 122 operations
    over the launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v84) = after (ops (F := F)) (launchContents m c) (Proc.devRef .tc main_v84)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨h c main_v84,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.Gcn.RefRun

end
-- ==== Proof.RefStages.lean ====
/-
  The reference's five stretches of host operations, each read from any contents.

  After the edge normalisation the buffers of the sources, the destinations and the edge weights hold the source list,
  the destination list and the weights of the edge table.  A layer's stretch leaves in its result buffer the layer's
  function of what it found in its input buffer, in its weight and bias arguments and in those three edge buffers, and
  writes none of the buffers a later stretch reads.
-/
import proofs.«153782_j69389491634483_1_alg».proof.Proof.RefRun
import proofs.«153782_j69389491634483_1_alg».proof.Proof.Glue

noncomputable section

namespace Cert.Gcn.RefStages

open Cert.ReferenceIdeal Cert.ReferenceIdeal.Gen Idealize.ShloMosaic Idealize.ShloMosaic.TcCoe Idealize.SL.Sem Idealize.ShloMosaic.StableHlo
open Cert.Gcn Cert.Gcn.RefRun

variable {F : FTy → Type} [FloatOps F]

/-! ## The edge normalisation -/

theorem norm_v3 (V : Valuation τ sig (Elt F)) :
    after (opsNorm (F := F)) V (Proc.devRef .tc main_v3) = edgeSrc (V (Proc.devRef .tc main_arg1)) := by
  after_results; rfl
theorem norm_v6 (V : Valuation τ sig (Elt F)) :
    after (opsNorm (F := F)) V (Proc.devRef .tc main_v6) = edgeDst (V (Proc.devRef .tc main_arg1)) := by
  after_results; rfl
set_option maxHeartbeats 8000000 in
theorem norm_v30 (V : Valuation τ sig (Elt F)) :
    after (opsNorm (F := F)) V (Proc.devRef .tc main_v30) = edgeNorm (V (Proc.devRef .tc main_arg1)) := by
  after_results; rfl
theorem norm_keep_main_arg0 (V : Valuation τ sig (Elt F)) :
    after (opsNorm (F := F)) V (Proc.devRef .tc main_arg0) = V (Proc.devRef .tc main_arg0) := by
  after_results
theorem norm_keep_main_arg2 (V : Valuation τ sig (Elt F)) :
    after (opsNorm (F := F)) V (Proc.devRef .tc main_arg2) = V (Proc.devRef .tc main_arg2) := by
  after_results
theorem norm_keep_main_arg3 (V : Valuation τ sig (Elt F)) :
    after (opsNorm (F := F)) V (Proc.devRef .tc main_arg3) = V (Proc.devRef .tc main_arg3) := by
  after_results
theorem norm_keep_main_arg4 (V : Valuation τ sig (Elt F)) :
    after (opsNorm (F := F)) V (Proc.devRef .tc main_arg4) = V (Proc.devRef .tc main_arg4) := by
  after_results
theorem norm_keep_main_arg5 (V : Valuation τ sig (Elt F)) :
    after (opsNorm (F := F)) V (Proc.devRef .tc main_arg5) = V (Proc.devRef .tc main_arg5) := by
  after_results
theorem norm_keep_main_arg6 (V : Valuation τ sig (Elt F)) :
    after (opsNorm (F := F)) V (Proc.devRef .tc main_arg6) = V (Proc.devRef .tc main_arg6) := by
  after_results
theorem norm_keep_main_arg7 (V : Valuation τ sig (Elt F)) :
    after (opsNorm (F := F)) V (Proc.devRef .tc main_arg7) = V (Proc.devRef .tc main_arg7) := by
  after_results

/-! ## Layer 1 -/

set_option maxHeartbeats 8000000 in
theorem layer1_v48 (V : Valuation τ sig (Elt F)) :
    after (opsLayer1 (F := F)) V (Proc.devRef .tc main_v48)
      = refBiasRelu (aggr128 (refLinear128 (V (Proc.devRef .tc main_arg0)) (V (Proc.devRef .tc main_arg2)))
          (V (Proc.devRef .tc main_v3)) (V (Proc.devRef .tc main_v6)) (V (Proc.devRef .tc main_v30))) (V (Proc.devRef .tc main_arg3)) := by
  after_results_simp; rfl
theorem layer1_keep_main_arg4 (V : Valuation τ sig (Elt F)) :
    after (opsLayer1 (F := F)) V (Proc.devRef .tc main_arg4) = V (Proc.devRef .tc main_arg4) := by
  after_results
theorem layer1_keep_main_arg5 (V : Valuation τ sig (Elt F)) :
    after (opsLayer1 (F := F)) V (Proc.devRef .tc main_arg5) = V (Proc.devRef .tc main_arg5) := by
  after_results
theorem layer1_keep_main_arg6 (V : Valuation τ sig (Elt F)) :
    after (opsLayer1 (F := F)) V (Proc.devRef .tc main_arg6) = V (Proc.devRef .tc main_arg6) := by
  after_results
theorem layer1_keep_main_arg7 (V : Valuation τ sig (Elt F)) :
    after (opsLayer1 (F := F)) V (Proc.devRef .tc main_arg7) = V (Proc.devRef .tc main_arg7) := by
  after_results
theorem layer1_keep_main_v3 (V : Valuation τ sig (Elt F)) :
    after (opsLayer1 (F := F)) V (Proc.devRef .tc main_v3) = V (Proc.devRef .tc main_v3) := by
  after_results
theorem layer1_keep_main_v6 (V : Valuation τ sig (Elt F)) :
    after (opsLayer1 (F := F)) V (Proc.devRef .tc main_v6) = V (Proc.devRef .tc main_v6) := by
  after_results
theorem layer1_keep_main_v30 (V : Valuation τ sig (Elt F)) :
    after (opsLayer1 (F := F)) V (Proc.devRef .tc main_v30) = V (Proc.devRef .tc main_v30) := by
  after_results

/-! ## Layer 2 -/

set_option maxHeartbeats 8000000 in
theorem layer2_v66 (V : Valuation τ sig (Elt F)) :
    after (opsLayer2 (F := F)) V (Proc.devRef .tc main_v66)
      = refBiasRelu (aggr128 (refLinear128 (V (Proc.devRef .tc main_v48)) (V (Proc.devRef .tc main_arg4)))
          (V (Proc.devRef .tc main_v3)) (V (Proc.devRef .tc main_v6)) (V (Proc.devRef .tc main_v30))) (V (Proc.devRef .tc main_arg5)) := by
  after_results_simp; rfl
theorem layer2_keep_main_arg6 (V : Valuation τ sig (Elt F)) :
    after (opsLayer2 (F := F)) V (Proc.devRef .tc main_arg6) = V (Proc.devRef .tc main_arg6) := by
  after_results
theorem layer2_keep_main_arg7 (V : Valuation τ sig (Elt F)) :
    after (opsLayer2 (F := F)) V (Proc.devRef .tc main_arg7) = V (Proc.devRef .tc main_arg7) := by
  after_results
theorem layer2_keep_main_v3 (V : Valuation τ sig (Elt F)) :
    after (opsLayer2 (F := F)) V (Proc.devRef .tc main_v3) = V (Proc.devRef .tc main_v3) := by
  after_results
theorem layer2_keep_main_v6 (V : Valuation τ sig (Elt F)) :
    after (opsLayer2 (F := F)) V (Proc.devRef .tc main_v6) = V (Proc.devRef .tc main_v6) := by
  after_results
theorem layer2_keep_main_v30 (V : Valuation τ sig (Elt F)) :
    after (opsLayer2 (F := F)) V (Proc.devRef .tc main_v30) = V (Proc.devRef .tc main_v30) := by
  after_results

/-! ## Layer 3 -/

set_option maxHeartbeats 8000000 in
theorem layer3_v83 (V : Valuation τ sig (Elt F)) :
    after (opsLayer3 (F := F)) V (Proc.devRef .tc main_v83)
      = refLogits (aggr64 (refLinear64 (V (Proc.devRef .tc main_v66)) (V (Proc.devRef .tc main_arg6)))
          (V (Proc.devRef .tc main_v3)) (V (Proc.devRef .tc main_v6)) (V (Proc.devRef .tc main_v30))) (V (Proc.devRef .tc main_arg7)) := by
  after_results_simp; rfl

/-! ## The log-softmax of the logits -/

/-- Contents carried to a buffer's own type and back are the contents. -/
theorem ofBuf_toBuf {T : BufTy} (x : TRef sig T) (v : T.Contents (Elt F)) : x.ofBuf (x.toBuf v) = v := by
  obtain ⟨r, h, h1, h2⟩ := x
  subst h
  rfl
theorem toBuf_v84 (v : (⟨S100000x64, .f32⟩ : BufTy).Contents (Elt F)) :
    (TRef.of (T := ⟨S100000x64, .f32⟩) main_v84).toBuf v = v := rfl
theorem ofBuf_v83 (v : (⟨S100000x64, .f32⟩ : BufTy).Contents (Elt F)) :
    (TRef.of (T := ⟨S100000x64, .f32⟩) main_v83).ofBuf v = v := rfl

set_option maxHeartbeats 8000000 in
theorem softmax_v84 (V : Valuation τ sig (Elt F)) :
    after (opsSoftmax (F := F)) V (Proc.devRef .tc main_v84) = refLogSoftmax (V (Proc.devRef .tc main_v83)) := by
  after_results_simp
  simp only [ofBuf_toBuf]
  rw [toBuf_v84, ofBuf_v83]
  unfold refLogSoftmax refShifted
  rfl

end Cert.Gcn.RefStages

end
-- ==== Proof.RefValue.lean ====
/-
  What the reference's result buffer holds after its run, as a function of the arguments: the five stretches chained.
  The line of 122 operations is the five stretches one after the other, so its fold is the folds composed; each layer's
  input, weight, bias and edge buffers are read back through the earlier stretches to the launch contents of the
  arguments.
-/
import proofs.«153782_j69389491634483_1_alg».proof.Proof.RefStages

noncomputable section

namespace Cert.Gcn.RefValue

open Cert.ReferenceIdeal Cert.ReferenceIdeal.Gen Idealize.ShloMosaic Idealize.ShloMosaic.TcCoe Idealize.SL.Sem Idealize.ShloMosaic.StableHlo
open Cert.Gcn Cert.Gcn.RefRun Cert.Gcn.RefStages

variable {F : FTy → Type} [FloatOps F]

set_option maxRecDepth 8192 in
/-- After the 122 operations the result buffer holds the reference's network of the argument buffers' contents. -/
theorem result (V : Valuation τ sig (Elt F)) :
    after (ops (F := F)) V (Proc.devRef .tc main_v84)
      = refGcn (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  unfold refGcn agg128 agg64
  refine (congrArg (fun l => after l V (Proc.devRef .tc main_v84)) (ops_split (F := F))).trans ?_
  show after ((opsNorm (F := F)) ++ (opsLayer1 ++ (opsLayer2 ++ (opsLayer3 ++ opsSoftmax)))) V (Proc.devRef .tc main_v84) = _
  rw [after_append, after_append, after_append, after_append, softmax_v84, layer3_v83, layer2_v66, layer1_v48,
    layer2_keep_main_arg6, layer2_keep_main_arg7, layer2_keep_main_v3, layer2_keep_main_v6, layer2_keep_main_v30,
    layer1_keep_main_arg4, layer1_keep_main_arg5, layer1_keep_main_arg6, layer1_keep_main_arg7,
    layer1_keep_main_v3, layer1_keep_main_v6, layer1_keep_main_v30,
    norm_v3, norm_v6, norm_v30, norm_keep_main_arg0, norm_keep_main_arg2, norm_keep_main_arg3, norm_keep_main_arg4,
    norm_keep_main_arg5, norm_keep_main_arg6, norm_keep_main_arg7]

end Cert.Gcn.RefValue

end
-- ==== Proof.RefBridgeLinear.lean ====
/-
  The reference's dense products, read entry by entry.

  At the ideal values the host's dot_general of a [100000, 128] matrix x and a [128, n] weight W is, at (r, j), the sum
  over the contraction index of x at (r, k) times W at (k, j): the contraction shape has the one axis of extent 128, so
  the sum is re-indexed over Fin 128, the kept coordinates of each operand read off the dot's dimension record.
-/
import proofs.«153782_j69389491634483_1_alg».proof.Proof.Glue
import Idealize.ShloMosaic.Lib.Pipeline.Value
import Idealize.ShloMosaic.Lib.ValueIdx
import Idealize.ShloMosaic.PureOps.Ideal.Laws

noncomputable section

namespace Cert.Gcn.RefBridge

open Cert.ReferenceIdeal Cert.ReferenceIdeal.Gen Idealize.ShloMosaic Idealize.ShloMosaic.ValueIdx Cert.Gcn

/-! ### The product with a [128, 128] weight -/

theorem lhs128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The host's dot_general of x and a [128, 128] weight is, entry by entry, the sum over the 128 features. -/
theorem refLinear128_eq (x : (⟨S100000x128, .f32⟩ : BufTy).Contents (Elt Ideal)) (w : (⟨S128x128, .f32⟩ : BufTy).Contents (Elt Ideal)) :
    refLinear128 (F := Ideal) x w = linear x w := by
  funext i
  unfold refLinear128 linear
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx i ((ValueIdx.contrEquiv1 dot_S100000x128_S128x128_S100000x128_1_0_0_1_n_n 128 rfl rfl).symm k) = ix2 (i 0) k := funext fun a => Fin.ext (by
    match a with
    | ⟨0, _⟩ => exact lhs128_0 _ _
    | ⟨1, _⟩ => exact (lhs128_1 _ _).trans hk)
  have er : dot_S100000x128_S128x128_S100000x128_1_0_0_1_n_n.rhsIdx i ((ValueIdx.contrEquiv1 dot_S100000x128_S128x128_S100000x128_1_0_0_1_n_n 128 rfl rfl).symm k) = ix2 k (i 1) := funext fun a => Fin.ext (by
    match a with
    | ⟨0, _⟩ => exact (rhs128_0 _ _).trans hk
    | ⟨1, _⟩ => exact rhs128_1 _ _)
  rw [el, er]
  rfl

/-! ### The product with a [128, 64] weight -/

theorem lhs64_0 (i : S100000x64.Idx) (q : dot_S100000x128_S128x64_S100000x64_1_0_0_1_n_n.contr.Idx) :
    (dot_S100000x128_S128x64_S100000x64_1_0_0_1_n_n.lhsIdx i q 0).val = (i 0).val := by
  unfold DotDims.lhsIdx
  rw [dif_neg (show ¬(0 : Fin S100000x128.rank) ∈ dot_S100000x128_S128x64_S100000x64_1_0_0_1_n_n.lhsBatch by decide), dif_pos (show (0 : Fin S100000x128.rank) ∈ dot_S100000x128_S128x64_S100000x64_1_0_0_1_n_n.lhsNonContracting by decide)]
  rfl
theorem lhs64_1 (i : S100000x64.Idx) (q : dot_S100000x128_S128x64_S100000x64_1_0_0_1_n_n.contr.Idx) :
    (dot_S100000x128_S128x64_S100000x64_1_0_0_1_n_n.lhsIdx i q 1).val = (q ⟨0, by decide⟩).val :=
  dot_S100000x128_S128x64_S100000x64_1_0_0_1_n_n.lhsIdx_val_of_single rfl i q
theorem rhs64_0 (i : S100000x64.Idx) (q : dot_S100000x128_S128x64_S100000x64_1_0_0_1_n_n.contr.Idx) :
    (dot_S100000x128_S128x64_S100000x64_1_0_0_1_n_n.rhsIdx i q 0).val = (q ⟨0, by decide⟩).val :=
  dot_S100000x128_S128x64_S100000x64_1_0_0_1_n_n.rhsIdx_val_of_single rfl i q
theorem rhs64_1 (i : S100000x64.Idx) (q : dot_S100000x128_S128x64_S100000x64_1_0_0_1_n_n.contr.Idx) :
    (dot_S100000x128_S128x64_S100000x64_1_0_0_1_n_n.rhsIdx i q 1).val = (i 1).val := by
  unfold DotDims.rhsIdx
  rw [dif_neg (show ¬(1 : Fin S128x64.rank) ∈ dot_S100000x128_S128x64_S100000x64_1_0_0_1_n_n.rhsBatch by decide), dif_pos (show (1 : Fin S128x64.rank) ∈ dot_S100000x128_S128x64_S100000x64_1_0_0_1_n_n.rhsNonContracting by decide)]
  rfl

/-- The host's dot_general of x and a [128, 64] weight is, entry by entry, the sum over the 128 features. -/
theorem refLinear64_eq (x : (⟨S100000x128, .f32⟩ : BufTy).Contents (Elt Ideal)) (w : (⟨S128x64, .f32⟩ : BufTy).Contents (Elt Ideal)) :
    refLinear64 (F := Ideal) x w = linear x w := by
  funext i
  unfold refLinear64 linear
  simp only [Host.dotGeneral]
  rw [Ideal.dotGeneral_apply, ← Equiv.sum_comp (ValueIdx.contrEquiv1 dot_S100000x128_S128x64_S100000x64_1_0_0_1_n_n 128 rfl rfl).symm]
  refine Finset.sum_congr rfl fun k _ => ?_
  have hk := ValueIdx.contrEquiv1_symm_val dot_S100000x128_S128x64_S100000x64_1_0_0_1_n_n 128 rfl rfl k
  have el : dot_S100000x128_S128x64_S100000x64_1_0_0_1_n_n.lhsIdx i ((ValueIdx.contrEquiv1 dot_S100000x128_S128x64_S100000x64_1_0_0_1_n_n 128 rfl rfl).symm k) = ix2 (i 0) k := funext fun a => Fin.ext (by
    match a with
    | ⟨0, _⟩ => exact lhs64_0 _ _
    | ⟨1, _⟩ => exact (lhs64_1 _ _).trans hk)
  have er : dot_S100000x128_S128x64_S100000x64_1_0_0_1_n_n.rhsIdx i ((ValueIdx.contrEquiv1 dot_S100000x128_S128x64_S100000x64_1_0_0_1_n_n 128 rfl rfl).symm k) = ix2 k (i 1) := funext fun a => Fin.ext (by
    match a with
    | ⟨0, _⟩ => exact (rhs64_0 _ _).trans hk
    | ⟨1, _⟩ => exact rhs64_1 _ _)
  rw [el, er]
  rfl

end Cert.Gcn.RefBridge

end
-- ==== Proof.RefBridgeEpi.lean ====
/-
  The reference's two epilogues, in the host's spelling, are the specified dense stages.

  Bias and relu: the host lays the bias vector out as a one-row matrix, repeats that row down the 100000 rows,
  adds, and clamps below at zero; entry (r, j) is max (a[r, j] + b[j]) 0, and b[j] is entry (0, j) of the bias
  reshaped to one row.

  Log-softmax: with h[r, j] = a[r, j] + b[j], the host folds max over the 64 entries of row r starting from -∞,
  takes the maximum of that with -∞ once more (which changes nothing: -∞ is below the fold, the fold having
  started from it), subtracts it from the row, and subtracts the log of the row's sum of exponentials of the
  shifted entries (a sum from zero over the 64 classes).  Entry (r, j) depends on row r of a and on b only.
-/
import proofs.«153782_j69389491634483_1_alg».proof.Proof.Glue
import Idealize.ShloMosaic.Lib.Pipeline.Value
import Idealize.ShloMosaic.Lib.ValueIdx
import Idealize.ShloMosaic.PureOps.Ideal.Laws
import Idealize.ShloMosaic.PureOps.Reduce

noncomputable section

namespace Cert.Gcn.RefBridge

open Cert.ReferenceIdeal Cert.ReferenceIdeal.Gen Idealize.ShloMosaic Idealize.ShloMosaic.ValueIdx Cert.Gcn

/-! ## The layout operations read at an index -/

section Layout
variable {α : Type}

/-- A scalar spread over any shape reads the scalar everywhere. -/
theorem splat_at {t : Shape} (h : S_.BroadcastsInDim t (![] : Fin 0 → Fin t.rank)) (y : S_.Idx → α) (i : t.Idx) :
    broadcastInDim t ![] h y i = y (fun a => a.elim0) :=
  broadcastInDim_apply _ h y i (fun a => a.elim0) (fun a => a.elim0)

/-- A vector of 128 laid out as one row, read at (0, q), is the vector at q. -/
theorem rowOf128_at (v : S128.Idx → α) (q : Fin 128) :
    broadcastInDim S1x128 ![1] bcast_S128_S1x128_1 v (ix2 (0 : Fin 1) q) = v (ix1 q) :=
  broadcastInDim_apply _ bcast_S128_S1x128_1 v (ix2 (0 : Fin 1) q) (ix1 q) (fun a => match a with
    | ⟨0, _⟩ => by show q.val = if (128 : Nat) = 1 then 0 else q.val; rw [if_neg (by decide)])

/-- One row of 128 repeated down 100000 rows, read at (p, q), is the row at (0, q). -/
theorem rows128_at (w : S1x128.Idx → α) (p : Fin 100000) (q : Fin 128) :
    broadcastInDim S100000x128 ![0, 1] bcast_S1x128_S100000x128_0_1 w (ix2 p q) = w (ix2 (0 : Fin 1) q) :=
  broadcastInDim_apply _ bcast_S1x128_S100000x128_0_1 w (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])

/-- A vector of 64 laid out as one row, read at (0, q), is the vector at q. -/
theorem rowOf64_at (v : S64.Idx → α) (q : Fin 64) :
    broadcastInDim S1x64 ![1] bcast_S64_S1x64_1 v (ix2 (0 : Fin 1) q) = v (ix1 q) :=
  broadcastInDim_apply _ bcast_S64_S1x64_1 v (ix2 (0 : Fin 1) q) (ix1 q) (fun a => match a with
    | ⟨0, _⟩ => by show q.val = if (64 : Nat) = 1 then 0 else q.val; rw [if_neg (by decide)])

/-- One row of 64 repeated down 100000 rows, read at (p, q), is the row at (0, q). -/
theorem rows64_at (w : S1x64.Idx → α) (p : Fin 100000) (q : Fin 64) :
    broadcastInDim S100000x64 ![0, 1] bcast_S1x64_S100000x64_0_1 w (ix2 p q) = w (ix2 (0 : Fin 1) q) :=
  broadcastInDim_apply _ bcast_S1x64_S100000x64_0_1 w (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])

/-- A vector of 100000 laid out as one column, read at (r, 0), is the vector at r. -/
theorem colOf_at (v : S100000.Idx → α) (r : Fin 100000) :
    broadcastInDim S100000x1 ![0] bcast_S100000_S100000x1_0 v (ix2 r (0 : Fin 1)) = v (ix1 r) :=
  broadcastInDim_apply _ bcast_S100000_S100000x1_0 v (ix2 r (0 : Fin 1)) (ix1 r) (fun a => match a with
    | ⟨0, _⟩ => by show r.val = if (100000 : Nat) = 1 then 0 else r.val; rw [if_neg (by decide)])

/-- One column repeated across 64 columns, read at (r, k), is the column at (r, 0). -/
theorem cols64_at (w : S100000x1.Idx → α) (r : Fin 100000) (k : Fin 64) :
    broadcastInDim S100000x64 ![0, 1] bcast_S100000x1_S100000x64_0_1 w (ix2 r k) = w (ix2 r (0 : Fin 1)) :=
  broadcastInDim_apply _ bcast_S100000x1_S100000x64_0_1 w (ix2 r k) (ix2 r (0 : Fin 1)) (fun a => match a with
    | ⟨0, _⟩ => by show r.val = if (100000 : Nat) = 1 then 0 else r.val; rw [if_neg (by decide)]
    | ⟨1, _⟩ => by show 0 = if (1 : Nat) = 1 then 0 else k.val; rw [if_pos rfl])

end Layout

/-- The bias vector reshaped to one row, read at (0, q), is the vector at q. -/
theorem row128_at (b : (⟨S128, .f32⟩ : BufTy).Contents (Elt Ideal)) (q : Fin 128) :
    row128 (F := Ideal) b (ix2 (0 : Fin 1) q) = b (ix1 q) := by
  unfold row128
  refine (shapeCast_addUnit_apply ![128] b _ (ix2 (0 : Fin 1) q)).trans ?_
  exact congrArg b (funext fun a => match a with | ⟨0, _⟩ => rfl)

theorem row64_at (b : (⟨S64, .f32⟩ : BufTy).Contents (Elt Ideal)) (q : Fin 64) :
    row64 (F := Ideal) b (ix2 (0 : Fin 1) q) = b (ix1 q) := by
  unfold row64
  refine (shapeCast_addUnit_apply ![64] b _ (ix2 (0 : Fin 1) q)).trans ?_
  exact congrArg b (funext fun a => match a with | ⟨0, _⟩ => rfl)

/-! ## Bias and relu -/

/-- The host's bias-and-relu is the specified one: entry (p, q) is max (a[p, q] + b[q]) 0 on both sides. -/
theorem refBiasRelu_eq (a : (⟨S100000x128, .f32⟩ : BufTy).Contents (Elt Ideal)) (b : (⟨S128, .f32⟩ : BufTy).Contents (Elt Ideal)) :
    refBiasRelu (F := Ideal) a b = biasRelu a (row128 b) := by
  funext i
  obtain ⟨p, q, rfl⟩ : ∃ (p : Fin 100000) (q : Fin 128), i = ix2 p q := ⟨i 0, i 1, eq_ix2 i⟩
  show max (a (ix2 p q) + broadcastInDim S100000x128 ![0, 1] bcast_S1x128_S100000x128_0_1 (broadcastInDim S1x128 ![1] bcast_S128_S1x128_1 b) (ix2 p q))
      (broadcastInDim S100000x128 ![] bcast_S_S100000x128 (constant (F := Ideal) S_ .f32 0x00000000#32) (ix2 p q))
    = max (a (ix2 p q) + row128 (F := Ideal) b (ix2 (0 : Fin 1) q)) (Ideal.ofBits .f32 0x00000000#32)
  rw [rows128_at, rowOf128_at, splat_at, row128_at]
  rfl

/-! ## Log-softmax -/

/-- The biased logits at (r, k): the specified row of logits. -/
theorem refLogits_at (a : (⟨S100000x64, .f32⟩ : BufTy).Contents (Elt Ideal)) (b : (⟨S64, .f32⟩ : BufTy).Contents (Elt Ideal))
    (r : Fin 100000) (k : Fin 64) :
    refLogits (F := Ideal) a b (ix2 r k) = logitRow a (row64 b) r k := by
  show a (ix2 r k) + broadcastInDim S100000x64 ![0, 1] bcast_S1x64_S100000x64_0_1 (broadcastInDim S1x64 ![1] bcast_S64_S1x64_1 b) (ix2 r k)
    = a (ix2 r k) + row64 (F := Ideal) b (ix2 (0 : Fin 1) k)
  rw [rows64_at, rowOf64_at, row64_at]

/-- The host's max-reduction of row r: the fold of max from -∞ over the row's 64 entries. -/
theorem hostRowMax_at (h : (⟨S100000x64, .f32⟩ : BufTy).Contents (Elt Ideal)) (r : Fin 100000) :
    Host.reduce FloatOps.maximumf h (constant (F := Ideal) S_ .f32 0xFF800000#32) reducesTo_S100000x64_S100000_d1 h_S_ (ix1 r)
      = rowMax (fun k => h (ix2 r k)) := by
  have hr : S100000x64.Reduces [1] S100000 := by decide
  refine (Host.reduce_eq_fold_single (FloatOps.maximumf (F := Ideal) (φ := .f32)) h _ reducesTo_S100000x64_S100000_d1 hr h_S_ (ix1 r)).trans ?_
  unfold rowMax
  show (Finset.univ : Finset (Fin 64)).fold max (Ideal.ofBits .f32 0xFF800000#32) (fun k => h (hr.lift (ix1 r) k)) = _
  refine congrArg (fun f : Fin 64 → EReal => (Finset.univ : Finset (Fin 64)).fold max (Ideal.ofBits .f32 0xFF800000#32) f)
    (funext fun k => congrArg h (funext fun c => Fin.ext ?_))
  match c with
  | ⟨0, _⟩ => rfl
  | ⟨1, _⟩ => rfl

/-- -∞ is below the row maximum, which is a fold of max that starts from -∞; so one more max with -∞ changes nothing. -/
theorem max_negInf_rowMax (f : Fin 64 → EReal) : max (Ideal.ofBits .f32 0xFF800000#32) (rowMax f) = rowMax f :=
  max_eq_right (by unfold rowMax; exact (Finset.le_fold_max _).mpr (Or.inl le_rfl))

/-- A row-wise shift by any column vector m, read at (r, k): the entry minus the larger of -∞ and m[r]. -/
theorem shiftedBy_at (h : (⟨S100000x64, .f32⟩ : BufTy).Contents (Elt Ideal)) (m : (⟨S100000, .f32⟩ : BufTy).Contents (Elt Ideal))
    (r : Fin 100000) (k : Fin 64) :
    subf h (broadcastInDim S100000x64 ![0, 1] bcast_S100000x1_S100000x64_0_1 (broadcastInDim S100000x1 ![0] bcast_S100000_S100000x1_0
      (maximumf (broadcastInDim S100000 ![] bcast_S_S100000 (constant (F := Ideal) S_ .f32 0xFF800000#32)) m))) (ix2 r k)
      = h (ix2 r k) - max (Ideal.ofBits .f32 0xFF800000#32) (m (ix1 r)) := by
  show h (ix2 r k) - broadcastInDim S100000x64 ![0, 1] bcast_S100000x1_S100000x64_0_1 (broadcastInDim S100000x1 ![0] bcast_S100000_S100000x1_0
      (maximumf (broadcastInDim S100000 ![] bcast_S_S100000 (constant (F := Ideal) S_ .f32 0xFF800000#32)) m)) (ix2 r k) = _
  rw [cols64_at, colOf_at]
  show h (ix2 r k) - max (broadcastInDim S100000 ![] bcast_S_S100000 (constant (F := Ideal) S_ .f32 0xFF800000#32) (ix1 r)) (m (ix1 r)) = _
  rw [splat_at]
  rfl

/-- The shifted logits at (r, k): the entry minus its row's maximum. -/
theorem refShifted_at (h : (⟨S100000x64, .f32⟩ : BufTy).Contents (Elt Ideal)) (r : Fin 100000) (k : Fin 64) :
    refShifted (F := Ideal) h (ix2 r k) = h (ix2 r k) - rowMax (fun k' => h (ix2 r k')) := by
  unfold refShifted
  refine (shiftedBy_at h _ r k).trans ?_
  rw [hostRowMax_at, max_negInf_rowMax]

/-- The host's add-reduction of row r from zero: the sum of the row's 64 entries. -/
theorem hostRowSum_at (e : (⟨S100000x64, .f32⟩ : BufTy).Contents (Elt Ideal)) (r : Fin 100000) :
    Host.reduceAdd (F := Ideal) e (constant (F := Ideal) S_ .f32 0x00000000#32) reducesTo_S100000x64_S100000_d1 h_S_ (ix1 r)
      = ∑ k : Fin 64, e (ix2 r k) := by
  have hr : S100000x64.Reduces [1] S100000 := by decide
  simp only [Host.reduceAdd, Ideal.hostReduceAdd_def]
  rw [Ideal.hostReduceAdd_single reducesTo_S100000x64_S100000_d1 hr]
  show Ideal.ofBits .f32 0x00000000#32 + ∑ k : Fin 64, e (hr.lift (ix1 r) k) = _
  rw [Ideal.ofBits_zero_f32, zero_add]
  refine Finset.sum_congr rfl fun k _ => congrArg e (funext fun c => Fin.ext ?_)
  match c with
  | ⟨0, _⟩ => rfl
  | ⟨1, _⟩ => rfl

/-- Subtracting the log of any column vector t from any matrix s, read at (r, j): the entry minus log t[r]. -/
theorem minusLog_at (s : (⟨S100000x64, .f32⟩ : BufTy).Contents (Elt Ideal)) (t : (⟨S100000, .f32⟩ : BufTy).Contents (Elt Ideal))
    (r : Fin 100000) (j : Fin 64) :
    subf (F := Ideal) (φ := .f32) s (broadcastInDim S100000x64 ![0, 1] bcast_S100000x1_S100000x64_0_1
      (Host.log (F := Ideal) (φ := .f32) (broadcastInDim S100000x1 ![0] bcast_S100000_S100000x1_0 t))) (ix2 r j)
      = s (ix2 r j) - Ideal.log (t (ix1 r)) := by
  show s (ix2 r j) - broadcastInDim S100000x64 ![0, 1] bcast_S100000x1_S100000x64_0_1
      (Host.log (F := Ideal) (φ := .f32) (broadcastInDim S100000x1 ![0] bcast_S100000_S100000x1_0 t)) (ix2 r j) = _
  rw [cols64_at]
  show s (ix2 r j) - Ideal.log (broadcastInDim S100000x1 ![0] bcast_S100000_S100000x1_0 t (ix2 r (0 : Fin 1))) = _
  rw [colOf_at]

/-- The host's exponential at an index is the exponential of the entry. -/
theorem hostExp_at (x : (⟨S100000x64, .f32⟩ : BufTy).Contents (Elt Ideal)) (i : S100000x64.Idx) :
    Host.exp (F := Ideal) (φ := .f32) x i = Ideal.exp (x i) := rfl

/-- The host's log-softmax at (r, j), from the row of logits alone. -/
theorem refLogSoftmax_at (h : (⟨S100000x64, .f32⟩ : BufTy).Contents (Elt Ideal)) (r : Fin 100000) (j : Fin 64) :
    refLogSoftmax (F := Ideal) h (ix2 r j)
      = (h (ix2 r j) - rowMax (fun k => h (ix2 r k)))
        - Ideal.log (∑ k : Fin 64, Ideal.exp (h (ix2 r k) - rowMax (fun k' => h (ix2 r k')))) := by
  unfold refLogSoftmax
  refine (minusLog_at _ _ r j).trans ?_
  rw [hostRowSum_at, refShifted_at]
  refine congrArg (fun s => (h (ix2 r j) - rowMax (fun k => h (ix2 r k))) - Ideal.log s) (Finset.sum_congr rfl fun k _ => ?_)
  rw [hostExp_at, refShifted_at]

/-- The host's log-softmax of the biased logits is the specified one. -/
theorem refLogSoftmax_eq (a : (⟨S100000x64, .f32⟩ : BufTy).Contents (Elt Ideal)) (b : (⟨S64, .f32⟩ : BufTy).Contents (Elt Ideal)) :
    refLogSoftmax (F := Ideal) (refLogits a b) = logSoftmaxBias a (row64 b) := by
  funext i
  obtain ⟨r, j, rfl⟩ : ∃ (r : Fin 100000) (j : Fin 64), i = ix2 r j := ⟨i 0, i 1, eq_ix2 i⟩
  rw [refLogSoftmax_at]
  have hrow : (fun k => refLogits (F := Ideal) a b (ix2 r k)) = logitRow a (row64 b) r := funext (refLogits_at a b r)
  rw [hrow, refLogits_at]
  show _ = (logitRow a (row64 b) r j - rowMax (logitRow a (row64 b) r))
    - Ideal.log (∑ k : Fin 64, Ideal.exp (logitRow a (row64 b) r k - rowMax (logitRow a (row64 b) r)))
  refine congrArg (fun s => (logitRow a (row64 b) r j - rowMax (logitRow a (row64 b) r)) - Ideal.log s) (Finset.sum_congr rfl fun k _ => ?_)
  rw [refLogits_at]

end Cert.Gcn.RefBridge

end
-- ==== Proof.lean ====
/-
  A three-layer graph-convolution network: the Pallas kernel program against its jnp reference, at the ideal values.

  Both programs compute, from node features x [100000, 128], an edge table [2, 1600000] and three weight / bias pairs,
      out = logsoftmax (agg (relu (agg (relu (agg (x·W1) + b1))·W2) + b2)·W3) + b3)
  where agg is the normalised sparse aggregation over the graph with self loops (a gather of source rows, a product with
  the edge weights dinv[src]·dinv[dst], a scatter-add into destination rows).  The aggregation is the same sequence of
  host operations in both programs.  They differ in the dense stages: the kernel tiles each of x·W, bias + relu and
  bias + log-softmax over 20 blocks of 5000 rows in a pipelined region (the product on bf16 casts, which are identities at
  the ideal values, into a zero accumulator), the reference applies one dot_general, one broadcast add with a clamp at zero,
  and the host's log-softmax.  Entry by entry the two spellings are the same extended real: a row block of a product is the
  product of the row block, the epilogues are row-wise, a reduction over a row is a fold over its 64 entries whatever
  unit takes it, and the reference's extra maximum against -∞ changes nothing.  No law used needs finiteness, so the
  precondition is never opened.

  The frames of the two kernel programs are the generated ones; the reference's frame is its run with the result dropped;
  the idealization rewrote nothing, so the preservation claim is trivial.
-/
import proofs.«153782_j69389491634483_1_alg».proof.Defs
import proofs.«153782_j69389491634483_1_alg».proof.Proof.Gen.Kernel
import proofs.«153782_j69389491634483_1_alg».proof.Proof.Gen.Kernel.Skeleton
import proofs.«153782_j69389491634483_1_alg».proof.Proof.Gen.Kernel.Launch
import proofs.«153782_j69389491634483_1_alg».proof.Proof.Gen.Kernel.Points
import proofs.«153782_j69389491634483_1_alg».proof.Proof.Gen.Kernel.Frame
import proofs.«153782_j69389491634483_1_alg».proof.Proof.Gen.KernelIdeal
import proofs.«153782_j69389491634483_1_alg».proof.Proof.Gen.KernelIdeal.Skeleton
import proofs.«153782_j69389491634483_1_alg».proof.Proof.Gen.KernelIdeal.Launch
import proofs.«153782_j69389491634483_1_alg».proof.Proof.Gen.KernelIdeal.Points
import proofs.«153782_j69389491634483_1_alg».proof.Proof.Gen.KernelIdeal.Frame
import proofs.«153782_j69389491634483_1_alg».proof.Proof.Gen.ReferenceIdeal
import proofs.«153782_j69389491634483_1_alg».proof.Proof.Gen.Pre_finite_inputs
import proofs.«153782_j69389491634483_1_alg».proof.Proof.KRun
import proofs.«153782_j69389491634483_1_alg».proof.Proof.KChain
import proofs.«153782_j69389491634483_1_alg».proof.Proof.Linear0
import proofs.«153782_j69389491634483_1_alg».proof.Proof.Linear2
import proofs.«153782_j69389491634483_1_alg».proof.Proof.Linear4
import proofs.«153782_j69389491634483_1_alg».proof.Proof.BiasRelu1
import proofs.«153782_j69389491634483_1_alg».proof.Proof.BiasRelu3
import proofs.«153782_j69389491634483_1_alg».proof.Proof.LogSoftmax5
import proofs.«153782_j69389491634483_1_alg».proof.Proof.RefRun
import proofs.«153782_j69389491634483_1_alg».proof.Proof.RefValue
import proofs.«153782_j69389491634483_1_alg».proof.Proof.RefBridgeLinear
import proofs.«153782_j69389491634483_1_alg».proof.Proof.RefBridgeEpi
import Idealize.ShloMosaic.Adequacy
import Idealize.ShloMosaic.Init

noncomputable section

namespace Cert.Proof

open Idealize.ShloMosaic Idealize.SL.Sem

/-- The reference's network in the host's spelling is the network over the specified dense stages: each dense stage is
    the same function entry by entry. -/
theorem refGcn_eq_gcn (x0 : (⟨Cert.ReferenceIdeal.S100000x128, .f32⟩ : BufTy).Contents (Elt Ideal)) (e : Cert.Gcn.EdgeTab Ideal)
    (w1 : (⟨Cert.ReferenceIdeal.S128x128, .f32⟩ : BufTy).Contents (Elt Ideal)) (b1 : (⟨Cert.ReferenceIdeal.S128, .f32⟩ : BufTy).Contents (Elt Ideal))
    (w2 : (⟨Cert.ReferenceIdeal.S128x128, .f32⟩ : BufTy).Contents (Elt Ideal)) (b2 : (⟨Cert.ReferenceIdeal.S128, .f32⟩ : BufTy).Contents (Elt Ideal))
    (w3 : (⟨Cert.ReferenceIdeal.S128x64, .f32⟩ : BufTy).Contents (Elt Ideal)) (b3 : (⟨Cert.ReferenceIdeal.S64, .f32⟩ : BufTy).Contents (Elt Ideal)) :
    Cert.Gcn.refGcn (F := Ideal) x0 e w1 b1 w2 b2 w3 b3 = Cert.Gcn.gcn x0 e w1 b1 w2 b2 w3 b3 := by
  unfold Cert.Gcn.refGcn Cert.Gcn.gcn
  rw [Cert.Gcn.RefBridge.refLogSoftmax_eq, Cert.Gcn.RefBridge.refLinear64_eq, Cert.Gcn.RefBridge.refBiasRelu_eq,
    Cert.Gcn.RefBridge.refLinear128_eq, Cert.Gcn.RefBridge.refBiasRelu_eq, Cert.Gcn.RefBridge.refLinear128_eq]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Gcn.RefRun.run (F := Ideal) m ρ)

/-- The idealization pass rewrote no operation. -/
theorem preserves : Cert.preserves_Kernel_KernelIdeal := trivial

/-- Both programs end with the result array at the network of the argument arrays: the kernel's by walking its twelve
    segments with each region's dense stage read off its blocks, the reference's by reading its 122 operations, and the
    two networks are one function. -/
theorem algebraic : Cert.algebraic_KernelIdeal_ReferenceIdeal := by
  intro m ρ m' ρ' _ hagree
  refine ⟨fun c => Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Gcn.KernelValue.result Cert.Gcn.Kernel.linear0 Cert.Gcn.Kernel.biasRelu1 Cert.Gcn.Kernel.linear2
          Cert.Gcn.Kernel.biasRelu3 Cert.Gcn.Kernel.linear4 Cert.Gcn.Kernel.logSoftmax5 m ρ c), (h c).2⟩)
      (Cert.Gcn.KernelRun.run_named (F := Ideal) m ρ)
  · refine (θ_run Cert.ReferenceIdeal.defs _ _).mono (fun _ h c => ⟨(h c).1.trans ?_, (h c).2⟩)
      (Cert.Gcn.RefRun.run (F := Ideal) m' ρ')
    rw [Cert.Gcn.RefValue.result, refGcn_eq_gcn]
    obtain ⟨e0, e1, e2, e3, e4, e5, e6, e7⟩ := hagree c
    have e : Cert.Gcn.gcn (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
        = Cert.Gcn.gcn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
      rw [e0, e1, e2, e3, e4, e5, e6, e7]
    exact e

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
